-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x5 : Shape := ⟨2, ![50000, 5]⟩
abbrev S2x600000 : Shape := ⟨2, ![2, 600000]⟩
abbrev S50000 : Shape := ⟨1, ![50000]⟩
abbrev S5x128 : Shape := ⟨2, ![5, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x5 : S_.BroadcastsInDim S50000x5 (![] : Fin 0 → Fin S50000x5.rank)
  reducesTo_S50000x5_S_d0_1 : S50000x5.ReducesTo [0, 1] S_
  h_S_ : 0 < S_.numel
  bcast_S_S5x128 : S_.BroadcastsInDim S5x128 (![] : Fin 0 → Fin S5x128.rank)
  reducesTo_S5x128_S_d0_1 : S5x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S128x64 .f32) (main_arg14 : FVec F S64 .f32) (main_arg15 : FVec F S64x1 .f32) (main_arg16 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg15
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg16 main_v63 main_v67

def fn_part2 {F : FTy → Type} [FloatOps F] (main_arg9 : FVec F S128 .f32) (main_arg10 : FVec F S128x128 .f32) (main_arg11 : FVec F S128x128 .f32) (main_arg12 : FVec F S128 .f32) (main_arg13 : FVec F S128x64 .f32) (main_arg14 : FVec F S64 .f32) (main_arg15 : FVec F S64x1 .f32) (main_arg16 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x64 .f32) (main_arg14 : FVec F S64 .f32) (main_arg15 : FVec F S64x1 .f32) (main_arg16 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x5 .f32) (main_arg1 : IVec S2x600000 32) (main_arg2 : IVec S50000 32) (main_arg3 : FVec F S5x128 .f32) (main_arg4 : FVec F S128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x64 .f32) (main_arg14 : FVec F S64 .f32) (main_arg15 : FVec F S64x1 .f32) (main_arg16 : FVec F S1 .f32) : IVec S_ 1 :=
  let main_v0 : FVec F S50000x5 .f32 := Host.absf main_arg0
  let main_cst : FVec F S_ .f32 := constant S_ .f32 0x7F800000#32
  let main_v1 : FVec F S50000x5 .f32 := broadcastInDim S50000x5 ![] bcast_S_S50000x5 main_cst
  let main_v2 : IVec S50000x5 1 := cmpf .olt main_v0 main_v1
  let main_c : IVec S_ 1 := constantI S_ 1 1#1
  let main_v3 : IVec S_ 1 := (fun x v => Host.reduce IntOp.andi x v reducesTo_S50000x5_S_d0_1 h_S_) main_v2 main_c
  let main_v4 : FVec F S5x128 .f32 := Host.absf main_arg3
  let main_cst_0 : FVec F S_ .f32 := constant S_ .f32 0x7F800000#32
  let main_v5 : FVec F S5x128 .f32 := broadcastInDim S5x128 ![] bcast_S_S5x128 main_cst_0
  let main_v6 : IVec S5x128 1 := cmpf .olt main_v4 main_v5
  let main_c_1 : IVec S_ 1 := constantI S_ 1 1#1
  let main_v7 : IVec S_ 1 := (fun x v => Host.reduce IntOp.andi x v reducesTo_S5x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x5 : Shape := ⟨2, ![50000, 5]⟩
abbrev S2x600000 : Shape := ⟨2, ![2, 600000]⟩
abbrev S50000 : Shape := ⟨1, ![50000]⟩
abbrev S5x128 : Shape := ⟨2, ![5, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S1x128 : Shape := ⟨2, ![1, 128]⟩
abbrev S50000x128 : Shape := ⟨2, ![50000, 128]⟩
abbrev S5000x5 : Shape := ⟨2, ![5000, 5]⟩
abbrev S5000x128 : Shape := ⟨2, ![5000, 128]⟩
abbrev S600000x128 : Shape := ⟨2, ![600000, 128]⟩
abbrev S5000x1 : Shape := ⟨2, ![5000, 1]⟩
abbrev S5000 : Shape := ⟨1, ![5000]⟩
abbrev S256x128 : Shape := ⟨2, ![256, 128]⟩
abbrev S256 : Shape := ⟨1, ![256]⟩
abbrev S256x1 : Shape := ⟨2, ![256, 1]⟩
abbrev S1x64 : Shape := ⟨2, ![1, 64]⟩
abbrev S1x1 : Shape := ⟨2, ![1, 1]⟩
abbrev S256x64 : Shape := ⟨2, ![256, 64]⟩

abbrev nBuf : Space → Nat
  | .hbm => 81
  | .vmem => 37
  | .smem => 0
  | _ => 0

abbrev bufTy : (tb : Table) → Fin (tcTables nBuf tb) → BufTy
  | .hbm, ⟨0, _⟩ => ⟨S50000x5, .f32⟩
  | .hbm, ⟨1, _⟩ => ⟨S2x600000, .i32⟩
  | .hbm, ⟨2, _⟩ => ⟨S50000, .i32⟩
  | .hbm, ⟨3, _⟩ => ⟨S5x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S64x1, .f32⟩
  | .hbm, ⟨16, _⟩ => ⟨S1, .f32⟩
  | .hbm, ⟨17, _⟩ => ⟨S1x600000, .i32⟩
  | .hbm, ⟨18, _⟩ => ⟨S600000, .i32⟩
  | .hbm, ⟨19, _⟩ => ⟨S1x600000, .i32⟩
  | .hbm, ⟨20, _⟩ => ⟨S600000, .i32⟩
  | .hbm, ⟨21, _⟩ => ⟨S_, .f32⟩
  | .hbm, ⟨22, _⟩ => ⟨S600000, .f32⟩
  | .hbm, ⟨23, _⟩ => ⟨S_, .f32⟩
  | .hbm, ⟨24, _⟩ => ⟨S50000, .f32⟩
  | .hbm, ⟨25, _⟩ => ⟨S600000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S1x128, .f32⟩
  | .hbm, ⟨35, _⟩ => ⟨S50000x128, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x128, .f32⟩
  | .hbm, ⟨45, _⟩ => ⟨S_, .f32⟩
  | .hbm, ⟨46, _⟩ => ⟨S50000x128, .f32⟩
  | .hbm, ⟨47, _⟩ => ⟨S600000x1, .i32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000x128, .f32⟩
  | .hbm, ⟨60, _⟩ => ⟨S_, .f32⟩
  | .hbm, ⟨61, _⟩ => ⟨S50000x128, .f32⟩
  | .hbm, ⟨62, _⟩ => ⟨S600000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S_, .f32⟩
  | .hbm, ⟨67, _⟩ => ⟨S256x128, .f32⟩
  | .hbm, ⟨68, _⟩ => ⟨S50000x1, .i32⟩
  | .hbm, ⟨69, _⟩ => ⟨S256x128, .f32⟩
  | .hbm, ⟨70, _⟩ => ⟨S_, .f32⟩
  | .hbm, ⟨71, _⟩ => ⟨S50000, .f32⟩
  | .hbm, ⟨72, _⟩ => ⟨S_, .f32⟩
  | .hbm, ⟨73, _⟩ => ⟨S256, .f32⟩
  | .hbm, ⟨74, _⟩ => ⟨S50000x1, .i32⟩
  | .hbm, ⟨75, _⟩ => ⟨S256, .f32⟩
  | .hbm, ⟨76, _⟩ => ⟨S256x1, .f32⟩
  | .hbm, ⟨77, _⟩ => ⟨S1x128, .f32⟩
  | .hbm, ⟨78, _⟩ => ⟨S1x64, .f32⟩
  | .hbm, ⟨79, _⟩ => ⟨S1x1, .f32⟩
  | .hbm, ⟨80, _⟩ => ⟨S256x1, .f32⟩
  | .local _ .vmem, ⟨0, _⟩ => ⟨S5000x5, .f32⟩
  | .local _ .vmem, ⟨1, _⟩ => ⟨S5000x5, .f32⟩
  | .local _ .vmem, ⟨2, _⟩ => ⟨S5x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S128x128, .f32⟩
  | .local _ .vmem, ⟨24, _⟩ => ⟨S1x128, .f32⟩
  | .local _ .vmem, ⟨25, _⟩ => ⟨S128x128, .f32⟩
  | .local _ .vmem, ⟨26, _⟩ => ⟨S5000x128, .f32⟩
  | .local _ .vmem, ⟨27, _⟩ => ⟨S5000x128, .f32⟩
  | .local _ .vmem, ⟨28, _⟩ => ⟨S256x128, .f32⟩
  | .local _ .vmem, ⟨29, _⟩ => ⟨S256x1, .f32⟩
  | .local _ .vmem, ⟨30, _⟩ => ⟨S128x128, .f32⟩
  | .local _ .vmem, ⟨31, _⟩ => ⟨S1x128, .f32⟩
  | .local _ .vmem, ⟨32, _⟩ => ⟨S128x64, .f32⟩
  | .local _ .vmem, ⟨33, _⟩ => ⟨S1x64, .f32⟩
  | .local _ .vmem, ⟨34, _⟩ => ⟨S64x1, .f32⟩
  | .local _ .vmem, ⟨35, _⟩ => ⟨S1x1, .f32⟩
  | .local _ .vmem, ⟨36, _⟩ => ⟨S256x1, .f32⟩
  | _, _ => ⟨S50000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_c_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_8 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_9 : Ref sig .tc := ⟨.hbm, 70, rfl⟩
abbrev main_v42 : Ref sig .tc := ⟨.hbm, 71, rfl⟩
abbrev main_cst_10 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S256x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S256x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S256x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  shapeCasts_S128_S1x128 : S128.ShapeCasts S1x128
  inb_S5000x5_S5000x5_0_0 : ∀ a, (![0, 0] : Fin 2 → Nat) a + S5000x5.size a ≤ S5000x5.size a
  h_S5000x5 : 0 < S5000x5.numel
  inb_S5x128_S5x128_0_0 : ∀ a, (![0, 0] : Fin 2 → Nat) a + S5x128.size a ≤ S5x128.size a
  h_S5x128 : 0 < S5x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  reduces_S5000x128_S5000 : S5000x128.Reduces [1] S5000
  shapeCasts_S5000_S5000x1 : S5000.ShapeCasts S5000x1
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  shapeCasts_S64_S1x64 : S64.ShapeCasts S1x64
  shapeCasts_S1_S1x1 : S1.ShapeCasts S1x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x128 : S256x1.Broadcasts S256x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x128_S256x128 : S1x128.Broadcasts S256x128
  broadcasts_S1x64_S256x64 : S1x64.Broadcasts S256x64
  broadcasts_S1x1_S256x1 : S1x1.Broadcasts S256x1
  scatter_S50000_S600000x1_S600000_n_0_0_1_wf : ScatterDims.WF S50000 S600000x1 S600000 [] [0] [0] 1
  dot_S5000x5_S5x128_S5000x128_1_0_0_1_n_n_wf : DotDims.WF S5000x5 S5x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x128_S256x128_1_0_0_1_n_n_wf : DotDims.WF S256x128 S128x128 S256x128 [1] [0] [0] [1] [] []
  dot_S256x128_S128x64_S256x64_1_0_0_1_n_n_wf : DotDims.WF S256x128 S128x64 S256x64 [1] [0] [0] [1] [] []
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S50000x5.size a
  hwx0_0 : ∀ i : grid0.Coords, EltTy.bits .f32 = 32 ∨ (Rect.block (s := S50000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x128.size a ≤ S5x128.size a
  hwx0_1 : ∀ i : grid0.Coords, EltTy.bits .f32 = 32 ∨ (Rect.block (s := S5x128) S5x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x128.size a ≤ S256x128.size a
  hwx3_0 : ∀ i : grid3.Coords, EltTy.bits .f32 = 32 ∨ (Rect.block (s := S256x128) S256x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x1.size a ≤ S256x1.size a
  hwx3_1 : ∀ i : grid3.Coords, EltTy.bits .f32 = 32 ∨ (Rect.block (s := S256x1) S256x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x64.size a ≤ S128x64.size a
  hwx3_4 : ∀ i : grid3.Coords, EltTy.bits .f32 = 32 ∨ (Rect.block (s := S128x64) S128x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x1.size a ≤ S64x1.size a
  hwx3_6 : ∀ i : grid3.Coords, EltTy.bits .f32 = 32 ∨ (Rect.block (s := S64x1) S64x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x1.size a ≤ S1x1.size a
  hwx3_7 : ∀ i : grid3.Coords, EltTy.bits .f32 = 32 ∨ (Rect.block (s := S1x1) S1x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S256x1.size a ≤ S256x1.size a
  hwx3_8 : ∀ i : grid3.Coords, EltTy.bits .f32 = 32 ∨ (Rect.block (s := S256x1) S256x1.size (cc3_transform_8 i) (hinb3_8 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x5_S5x128_S5000x128_1_0_0_1_n_n : DotDims S5000x5 S5x128 S5000x128 where
  lhsContracting := [1]
  rhsContracting := [0]
  lhsNonContracting := [0]
  rhsNonContracting := [1]
  lhsBatch := []
  rhsBatch := []
  wf := dot_S5000x5_S5x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v38) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v41) S256x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v46) S256x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S128x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v48) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg15) S64x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v49) S1x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v50) S256x1.size cc3_transform_8 reads3_8 true true 1 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S50000x5 : Shape := ⟨2, ![50000, 5]⟩
abbrev S2x600000 : Shape := ⟨2, ![2, 600000]⟩
abbrev S50000 : Shape := ⟨1, ![50000]⟩
abbrev S5x128 : Shape := ⟨2, ![5, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S50000x128 : Shape := ⟨2, ![50000, 128]⟩
abbrev S1x128 : Shape := ⟨2, ![1, 128]⟩
abbrev S600000x128 : Shape := ⟨2, ![600000, 128]⟩
abbrev S256x128 : Shape := ⟨2, ![256, 128]⟩
abbrev S256 : Shape := ⟨1, ![256]⟩
abbrev S256x1 : Shape := ⟨2, ![256, 1]⟩
abbrev S256x64 : Shape := ⟨2, ![256, 64]⟩
abbrev S1x64 : Shape := ⟨2, ![1, 64]⟩
abbrev S1x1 : Shape := ⟨2, ![1, 1]⟩

abbrev nBuf : Space → Nat
  | .hbm => 143
  | .vmem => 0
  | .smem => 0
  | _ => 0

abbrev hbmTy0_0 (i : Nat) : BufTy := match i % 128 with
  | 0 => ⟨S50000x5, .f32⟩
  | 1 => ⟨S2x600000, .i32⟩
  | 2 => ⟨S50000, .i32⟩
  | 3 => ⟨S5x128, .f32⟩
  | 4 => ⟨S128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x64, .f32⟩
  | 14 => ⟨S64, .f32⟩
  | 15 => ⟨S64x1, .f32⟩
  | 16 => ⟨S1, .f32⟩
  | 17 => ⟨S1x600000, .i32⟩
  | 18 => ⟨S600000, .i32⟩
  | 19 => ⟨S1x600000, .i32⟩
  | 20 => ⟨S600000, .i32⟩
  | 21 => ⟨S_, .f32⟩
  | 22 => ⟨S600000, .f32⟩
  | 23 => ⟨S_, .f32⟩
  | 24 => ⟨S50000, .f32⟩
  | 25 => ⟨S600000x1, .i32⟩
  | 26 => ⟨S50000, .f32⟩
  | 27 => ⟨S_, .f32⟩
  | 28 => ⟨S50000, .f32⟩
  | 29 => ⟨S50000, .f32⟩
  | 30 => ⟨S_, .f32⟩
  | 31 => ⟨S50000, .f32⟩
  | 32 => ⟨S50000, .f32⟩
  | 33 => ⟨S50000x1, .f32⟩
  | 34 => ⟨S50000x128, .f32⟩
  | 35 => ⟨S1x128, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000x128, .f32⟩
  | 50 => ⟨S_, .f32⟩
  | 51 => ⟨S50000x128, .f32⟩
  | 52 => ⟨S600000x1, .i32⟩
  | 53 => ⟨S50000x128, .f32⟩
  | 54 => ⟨S50000x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S50000x128, .f32⟩
  | 61 => ⟨S50000x128, .f32⟩
  | 62 => ⟨S50000x128, .f32⟩
  | 63 => ⟨S_, .f32⟩
  | 64 => ⟨S50000, .f32⟩
  | 65 => ⟨S50000x1, .f32⟩
  | 66 => ⟨S50000x1, .f32⟩
  | 67 => ⟨S_, .f32⟩
  | 68 => ⟨S50000x1, .f32⟩
  | 69 => ⟨S50000x1, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S_, .i32⟩
  | 76 => ⟨S600000, .i32⟩
  | 77 => ⟨S600000, .i1⟩
  | 78 => ⟨S_, .i32⟩
  | 79 => ⟨S600000, .i32⟩
  | 80 => ⟨S600000, .i32⟩
  | 81 => ⟨S600000, .i32⟩
  | 82 => ⟨S600000x1, .i32⟩
  | 83 => ⟨S600000x128, .f32⟩
  | 84 => ⟨S_, .f32⟩
  | 85 => ⟨S50000x128, .f32⟩
  | 86 => ⟨S600000x1, .i32⟩
  | 87 => ⟨S50000x128, .f32⟩
  | 88 => ⟨S50000x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S50000x128, .f32⟩
  | 95 => ⟨S50000x128, .f32⟩
  | 96 => ⟨S50000x128, .f32⟩
  | 97 => ⟨S_, .f32⟩
  | 98 => ⟨S50000, .f32⟩
  | 99 => ⟨S50000x1, .f32⟩
  | 100 => ⟨S50000x1, .f32⟩
  | 101 => ⟨S_, .f32⟩
  | 102 => ⟨S50000x1, .f32⟩
  | 103 => ⟨S50000x1, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S_, .f32⟩
  | 110 => ⟨S256x128, .f32⟩
  | 111 => ⟨S50000x1, .i32⟩
  | 112 => ⟨S256x128, .f32⟩
  | 113 => ⟨S_, .f32⟩
  | 114 => ⟨S50000, .f32⟩
  | 115 => ⟨S_, .f32⟩
  | 116 => ⟨S256, .f32⟩
  | 117 => ⟨S50000x1, .i32⟩
  | 118 => ⟨S256, .f32⟩
  | 119 => ⟨S_, .f32⟩
  | 120 => ⟨S256, .f32⟩
  | 121 => ⟨S256, .f32⟩
  | 122 => ⟨S256x1, .f32⟩
  | 123 => ⟨S256x128, .f32⟩
  | 124 => ⟨S256x128, .f32⟩
  | 125 => ⟨S256x128, .f32⟩
  | 126 => ⟨S1x128, .f32⟩
  | 127 => ⟨S256x128, .f32⟩
  | _ => ⟨S50000x5, .f32⟩

abbrev hbmTy0_1 (i : Nat) : BufTy := match i % 128 with
  | 0 => ⟨S256x128, .f32⟩
  | 1 => ⟨S_, .f32⟩
  | 2 => ⟨S256x128, .f32⟩
  | 3 => ⟨S256x128, .f32⟩
  | 4 => ⟨S256x64, .f32⟩
  | 5 => ⟨S1x64, .f32⟩
  | 6 => ⟨S256x64, .f32⟩
  | 7 => ⟨S256x64, .f32⟩
  | 8 => ⟨S_, .f32⟩
  | 9 => ⟨S256x64, .f32⟩
  | 10 => ⟨S256x64, .f32⟩
  | 11 => ⟨S256x1, .f32⟩
  | 12 => ⟨S1x1, .f32⟩
  | 13 => ⟨S256x1, .f32⟩
  | 14 => ⟨S256x1, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | _, _ => ⟨S50000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_call0_cst : Ref sig .tc := ⟨.hbm, 38, rfl⟩
abbrev main_call0_v0 : Ref sig .tc := ⟨.hbm, 39, rfl⟩
abbrev main_v17 : Ref sig .tc := ⟨.hbm, 40, rfl⟩
abbrev main_c : Ref sig .tc := ⟨.hbm, 41, rfl⟩
abbrev main_v18 : Ref sig .tc := ⟨.hbm, 42, rfl⟩
abbrev main_v19 : Ref sig .tc := ⟨.hbm, 43, rfl⟩
abbrev main_c_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_4 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_call1_cst : Ref sig .tc := ⟨.hbm, 72, rfl⟩
abbrev main_call1_v0 : Ref sig .tc := ⟨.hbm, 73, rfl⟩
abbrev main_v44 : Ref sig .tc := ⟨.hbm, 74, rfl⟩
abbrev main_c_7 : Ref sig .tc := ⟨.hbm, 75, rfl⟩
abbrev main_v45 : Ref sig .tc := ⟨.hbm, 76, rfl⟩
abbrev main_v46 : Ref sig .tc := ⟨.hbm, 77, rfl⟩
abbrev main_c_8 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_9 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_10 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_11 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_call2_cst : Ref sig .tc := ⟨.hbm, 106, rfl⟩
abbrev main_call2_v0 : Ref sig .tc := ⟨.hbm, 107, rfl⟩
abbrev main_v71 : Ref sig .tc := ⟨.hbm, 108, rfl⟩
abbrev main_cst_12 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_13 : Ref sig .tc := ⟨.hbm, 113, rfl⟩
abbrev main_v75 : Ref sig .tc := ⟨.hbm, 114, rfl⟩
abbrev main_cst_14 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_15 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_call3_cst : Ref sig .tc := ⟨.hbm, 129, rfl⟩
abbrev main_call3_v0 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_call4_cst : Ref sig .tc := ⟨.hbm, 136, rfl⟩
abbrev main_call4_v0 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1x128_S256x128_0_1 : S1x128.BroadcastsInDim S256x128 (![0, 1] : Fin 2 → Fin S256x128.rank)
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S50000_S600000x1_S600000_n_0_0_1_wf : ScatterDims.WF S50000 S600000x1 S600000 [] [0] [0] 1
  dot_S50000x5_S5x128_S50000x128_1_0_0_1_n_n_wf : DotDims.WF S50000x5 S5x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x128_S256x128_1_0_0_1_n_n_wf : DotDims.WF S256x128 S128x128 S256x128 [1] [0] [0] [1] [] []
  dot_S256x128_S128x64_S256x64_1_0_0_1_n_n_wf : DotDims.WF S256x128 S128x64 S256x64 [1] [0] [0] [1] [] []
  dot_S256x64_S64x1_S256x1_1_0_0_1_n_n_wf : DotDims.WF S256x64 S64x1 S256x1 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x5_S5x128_S50000x128_1_0_0_1_n_n : DotDims S50000x5 S5x128 S50000x128 where
  lhsContracting := [1]
  rhsContracting := [0]
  lhsNonContracting := [0]
  rhsNonContracting := [1]
  lhsBatch := []
  rhsBatch := []
  wf := dot_S50000x5_S5x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.KRun.lean ====
/-
  The idealized kernel's run with its final memory NAMED: every weakly fair execution of @main terminates, nothing
  faulting, and on every core each buffer that outlives the pallas calls ends at the contents the last segment
  boundary assigns it — the fold of @main's eight segments (four stretches of host operations, four pallas calls)
  from the launch memory. The result buffer's final contents and the unchanged arguments are read off this one run.
-/
import proofs.«131596_j2508260901292_2_alg».proof.Proof.KernelIdealFrameP

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement
set_option backward.isDefEq.respectTransparency.types false in
/-- The run, with the whole final memory of the long-lived buffers: at each of them the last boundary's contents. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The result buffer is long-lived. -/
theorem result_mem : Proc.devRef .tc main_v50 ∈ Pipeline.ucRefs τ sig := mem_uc main_v50 (by decide)

end Cert.KernelIdeal.Hand

end
-- ==== Proof.Spec.lean ====
/-
  The mathematics both programs compute, over the extended reals, as whole-array functions with abstract extents.

  * `dense x W b`: row `p`, column `q` is the sum over `k` of `x (p, k) · W (k, q)`, plus the bias `b (0, q)`.
  * `relu`: the larger of an entry and the value of the zero word.
  * `sageLin`: one mean-aggregating graph layer before normalisation — the neighbour sum `agg`, scaled row by row
    by `deg` (the reciprocal in-degree, a column), through `Wl` with bias, plus the node's own features through `Wr`.
  * `rowNormalize`: each row divided by the larger of its Euclidean norm and the floor `1e-12`.
  * `meanPool`: each row of the per-graph sums divided by the larger of the graph's node count and one.
  * `poolMlp`: mean pooling followed by two dense layers with relu and a last dense layer.

  Every entry of a result depends on ONE row of the row-indexed operands (`*_row` lemmas): that is what lets a
  block of rows be computed from the same block of rows of the operands.
-/
import Idealize.ShloMosaic.PureOps.Ideal.Laws
import Idealize.ShloMosaic.Lib.ValueIdx

noncomputable section

open scoped BigOperators

namespace Cert.GraphSage

open Idealize.ShloMosaic Idealize.ShloMosaic.ValueIdx

/-- A rank-two array of extended reals. -/
abbrev Mat (a b : Nat) : Type := (⟨2, ![a, b]⟩ : Shape).Idx → EReal

/-- The values of the three float words the programs splat: `0.0`, `1.0` and the norm's floor `1e-12` (as f32). -/
abbrev zeroW : EReal := Ideal.ofBits .f32 0x00000000#32
abbrev oneW : EReal := Ideal.ofBits .f32 0x3F800000#32
abbrev floorW : EReal := Ideal.ofBits .f32 0x2B8CBCCC#32

variable {M M' K N : Nat}

/-- Entry `(p, q)` of `x · W + b`. -/
def denseAt (x : Mat M K) (W : Mat K N) (b : Mat 1 N) (p : Fin M) (q : Fin N) : EReal :=
  (∑ k : Fin K, x (ix2 p k) * W (ix2 k q)) + b (ix2 (0 : Fin 1) q)

/-- `x · W + b`, the bias a single row. -/
def dense (x : Mat M K) (W : Mat K N) (b : Mat 1 N) : Mat M N := fun i => denseAt x W b (i 0) (i 1)

theorem dense_apply (x : Mat M K) (W : Mat K N) (b : Mat 1 N) (p : Fin M) (q : Fin N) :
    dense x W b (ix2 p q) = denseAt x W b p q := rfl

/-- `max (·) 0`, entry by entry. -/
def relu (x : Mat M N) : Mat M N := fun i => max (x i) zeroW

theorem relu_apply (x : Mat M N) (i : (⟨2, ![M, N]⟩ : Shape).Idx) : relu x i = max (x i) zeroW := rfl

/-- Entry `(p, q)` of a graph layer before normalisation. -/
def sageLinAt (agg h : Mat M K) (deg : Mat M 1) (Wl : Mat K N) (bl : Mat 1 N) (Wr : Mat K N) (p : Fin M) (q : Fin N) : EReal :=
  ((∑ k : Fin K, (agg (ix2 p k) * deg (ix2 p (0 : Fin 1))) * Wl (ix2 k q)) + bl (ix2 (0 : Fin 1) q))
    + ∑ k : Fin K, h (ix2 p k) * Wr (ix2 k q)

/-- Entry `(p, q)` of a row-normalised array whose row `p` is `z`. -/
def normAt (z : Fin N → EReal) (q : Fin N) : EReal :=
  Ideal.div (z q) (max (Ideal.sqrt (∑ j : Fin N, z j * z j)) floorW)

/-- Entry `(p, q)` of a whole graph layer: linear part, row normalisation, relu. -/
def sageAt (agg h : Mat M K) (deg : Mat M 1) (Wl : Mat K N) (bl : Mat 1 N) (Wr : Mat K N) (p : Fin M) (q : Fin N) : EReal :=
  max (normAt (fun j => sageLinAt agg h deg Wl bl Wr p j) q) zeroW

/-- A whole graph layer. -/
def sage (agg h : Mat M K) (deg : Mat M 1) (Wl : Mat K N) (bl : Mat 1 N) (Wr : Mat K N) : Mat M N :=
  fun i => sageAt agg h deg Wl bl Wr (i 0) (i 1)

theorem sage_apply (agg h : Mat M K) (deg : Mat M 1) (Wl : Mat K N) (bl : Mat 1 N) (Wr : Mat K N) (p : Fin M) (q : Fin N) :
    sage agg h deg Wl bl Wr (ix2 p q) = sageAt agg h deg Wl bl Wr p q := rfl

/-- Mean pooling: the sums of a graph's rows divided by the larger of its node count and one. -/
def meanPool (gsum : Mat M K) (gcnt : Mat M 1) : Mat M K :=
  fun i => Ideal.div (gsum i) (max (gcnt (ix2 (i 0) (0 : Fin 1))) oneW)

theorem meanPool_apply (gsum : Mat M K) (gcnt : Mat M 1) (p : Fin M) (k : Fin K) :
    meanPool gsum gcnt (ix2 p k) = Ideal.div (gsum (ix2 p k)) (max (gcnt (ix2 p (0 : Fin 1))) oneW) := rfl

/-- The pooling head: mean pooling, two dense layers with relu, one dense layer. -/
def poolMlp {D1 D2 D3 D4 : Nat} (gsum : Mat M D1) (gcnt : Mat M 1) (W1 : Mat D1 D2) (b1 : Mat 1 D2) (W2 : Mat D2 D3) (b2 : Mat 1 D3)
    (W3 : Mat D3 D4) (b3 : Mat 1 D4) : Mat M D4 :=
  dense (relu (dense (relu (dense (meanPool gsum gcnt) W1 b1)) W2 b2)) W3 b3

/-! ## Row locality -/

/-- A dense layer's entry in row `p` reads only row `p` of its left operand. -/
theorem denseAt_row (x : Mat M K) (x' : Mat M' K) (W : Mat K N) (b : Mat 1 N) (p : Fin M) (p' : Fin M') (q : Fin N)
    (hx : ∀ k, x (ix2 p k) = x' (ix2 p' k)) : denseAt x W b p q = denseAt x' W b p' q := by
  unfold denseAt
  simp only [hx]

/-- A graph layer's entry in row `p` reads only row `p` of the neighbour sums, of the features and of the scale. -/
theorem sageAt_row (agg h : Mat M K) (deg : Mat M 1) (agg' h' : Mat M' K) (deg' : Mat M' 1) (Wl : Mat K N) (bl : Mat 1 N) (Wr : Mat K N)
    (p : Fin M) (p' : Fin M') (q : Fin N) (ha : ∀ k, agg (ix2 p k) = agg' (ix2 p' k)) (hh : ∀ k, h (ix2 p k) = h' (ix2 p' k))
    (hd : deg (ix2 p (0 : Fin 1)) = deg' (ix2 p' (0 : Fin 1))) :
    sageAt agg h deg Wl bl Wr p q = sageAt agg' h' deg' Wl bl Wr p' q := by
  have e : (fun j => sageLinAt agg h deg Wl bl Wr p j) = fun j => sageLinAt agg' h' deg' Wl bl Wr p' j := by
    funext j
    unfold sageLinAt
    simp only [ha, hh, hd]
  unfold sageAt
  rw [e]

end Cert.GraphSage

end
-- ==== Proof.LibRowOps.lean ====
/-
  Rank-two arrays read at an index, over abstract extents.

  * A plain matrix product — rows by contraction times contraction by columns, no batch axis — read at
    `(p, q)` is the sum over the contraction axis of left `(p, k)` times right `(k, q)`: for a kernel's product
    into a zero accumulator and for the host's `dot_general` alike, at the ideal values.
  * A vector of length `N` spread over the rows of an `M × N` array, read at `(p, q)`, is the vector at `q`:
    spelt as a shape cast followed by a broadcast, or as two `broadcast_in_dim`s.
  * A unit-stride slice of columns (of entries, for a vector) read at an index is the operand at the shifted index.
  * A scalar constant spread over any shape reads as the constant's value.
-/
import Idealize.ShloMosaic.PureOps.Ideal.Laws
import Idealize.ShloMosaic.Lib.ValueIdx
import Idealize.ShloMosaic.Lib.Pipeline.Value

noncomputable section

open scoped BigOperators

namespace Cert.Lib.RowOps

open Idealize.ShloMosaic Idealize.ShloMosaic.ValueIdx

/-! ## Plain matrix products -/

/-- The contraction of a plain product at `(p, q)`, re-indexed by the contraction axis itself. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A kernel's plain product into the zero accumulator, at `(p, q)`. -/
theorem matmul_zero_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply]
  exact plain_sum M K N l r p q

/-- The host's plain `dot_general` at `(p, q)`. -/
theorem dotGeneral_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum M K N l r p q

/-! ## A vector spread over the rows -/

section Spread

variable {α : Type}

/-- Shape cast to one row, then broadcast over `M` rows. -/
theorem castRow_broadcast_apply (M N : Nat) (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_apply _ h2 (ix2 p q) (ix2 (0 : Fin 1) q) (fun a => by
    match a with
    | ⟨0, _⟩ => simp
    | ⟨1, _⟩ =>
      show q.val = if N = 1 then 0 else q.val
      split
      · have := q.isLt; omega
      · rfl)]
  rw [shapeCast_addUnit_apply ![N] b h1 (ix2 (0 : Fin 1) q)]
  exact congrArg b (funext fun a => by match a with | ⟨0, _⟩ => rfl)

/-- `broadcast_in_dim` to one row, then over `M` rows. -/
theorem bcastRow_bcast_apply (M N : Nat) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => simp
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-! ## Slices -/

/-- Columns `o … o + N - 1` of an `M × N'` array. -/
theorem sliceCols_apply (M N' N o : Nat) (x : (⟨2, ![M, N']⟩ : Shape).Idx → α)
    (h : (⟨2, ![M, N']⟩ : Shape).Slices ![0, o] ⟨2, ![M, N]⟩) (p : Fin M) (q : Fin N) (hlt : o + q.val < N') :
    extractStridedSlice ⟨2, ![M, N]⟩ ![0, o] x h (ix2 p q) = x (ix2 p ⟨o + q.val, hlt⟩) :=
  extractStridedSlice_apply ![0, o] x h (ix2 p q) (ix2 p ⟨o + q.val, hlt⟩) (fun a => by
    match a with
    | ⟨0, _⟩ => show p.val = 0 + p.val; omega
    | ⟨1, _⟩ => rfl)

/-- Entries `o … o + N - 1` of a vector of length `N'`. -/
theorem sliceVec_apply (N' N o : Nat) (x : (⟨1, ![N']⟩ : Shape).Idx → α)
    (h : (⟨1, ![N']⟩ : Shape).Slices ![o] ⟨1, ![N]⟩) (q : Fin N) (hlt : o + q.val < N') :
    extractStridedSlice ⟨1, ![N]⟩ ![o] x h (ix1 q) = x (ix1 ⟨o + q.val, hlt⟩) :=
  extractStridedSlice_apply ![o] x h (ix1 q) (ix1 ⟨o + q.val, hlt⟩) (fun a => by
    match a with
    | ⟨0, _⟩ => rfl)

end Spread

/-! ## One-operand operations at an index (definitional at the ideal values) -/

section Pointwise

variable {s : Shape} {φ : FTy}

theorem hostDivf_apply (x y : FVec Ideal s φ) (i : s.Idx) : Host.divf x y i = Ideal.div (x i) (y i) := rfl
theorem hostExp_apply (x : FVec Ideal s φ) (i : s.Idx) : Host.exp x i = Ideal.exp (x i) := rfl
theorem hostNegf_apply (x : FVec Ideal s φ) (i : s.Idx) : Host.negf x i = -(x i) := rfl
theorem hostTanh_apply (x : FVec Ideal s φ) (i : s.Idx) : Host.tanh x i = Ideal.tanh (x i) := rfl
theorem tanh_apply (x : FVec Ideal s φ) (i : s.Idx) : tanh x i = Ideal.tanh (x i) := rfl
theorem logistic_apply (x : FVec Ideal s φ) (i : s.Idx) : logistic x i = Ideal.logistic (x i) := rfl

end Pointwise

/-! ## Scalar constants spread over a shape -/

/-- The host's `broadcast_in_dim` of a scalar constant. -/
theorem splat_apply {φ : FTy} (t : Shape) (h : (⟨0, ![]⟩ : Shape).BroadcastsInDim t ![]) (w : BitVec φ.bits) (i : t.Idx) :
    broadcastInDim t ![] h (constant (F := Ideal) ⟨0, ![]⟩ φ w) i = Ideal.ofBits φ w := by
  rw [broadcastInDim_apply ![] h _ i ix0 (fun a => a.elim0)]
  rfl

end Cert.Lib.RowOps

end
-- ==== Proof.PayPool.lean ====
/-
  The pooling head's kernel body, as a pure term, is the specification's head.

  The body divides each row of the per-graph sums by the larger of the graph's node count and one — the count a
  column spread over the feature columns —, then applies three dense layers, each a product into the zero
  accumulator plus a bias row spread over the rows, the first two followed by the larger-of-entry-and-zero.
  Over the extended reals the narrowing before each product is the identity, so each stage is the
  specification's stage entry by entry.
-/
import proofs.«131596_j2508260901292_2_alg».proof.Proof.Gen.KernelIdeal.Skeleton
import proofs.«131596_j2508260901292_2_alg».proof.Proof.Spec
import proofs.«131596_j2508260901292_2_alg».proof.Proof.LibRowOps
import Idealize.ShloMosaic.PureOps.Ideal.Laws
import Idealize.ShloMosaic.Lib.ValueIdx
import Idealize.ShloMosaic.Lib.Pipeline.Value

noncomputable section

open scoped BigOperators

namespace Cert.KernelIdeal.Hand

open Cert.KernelIdeal Cert.KernelIdeal.Gen Cert.GraphSage Idealize.ShloMosaic Idealize.ShloMosaic.ValueIdx

/-! ## A row spread over the rows, a column spread over the columns -/

section Spread

variable {α : Type}

/-- A single row spread over `M` rows, read at `(p, q)`, is the row at `q`. -/
theorem rowSpread_apply (M N : Nat) (b : (⟨2, ![1, N]⟩ : Shape).Idx → α)
    (h : (⟨2, ![1, N]⟩ : Shape).Broadcasts ⟨2, ![M, N]⟩) (p : Fin M) (q : Fin N) :
    broadcastTo ⟨2, ![M, N]⟩ b h (ix2 p q) = b (ix2 (0 : Fin 1) q) :=
  broadcastTo_apply b h (ix2 p q) (ix2 (0 : Fin 1) q) (fun a => by
    match a with
    | ⟨0, _⟩ => simp
    | ⟨1, _⟩ =>
      show q.val = if N = 1 then 0 else q.val
      split
      · have := q.isLt; omega
      · rfl)

/-- A single column spread over `K` columns, read at `(p, k)`, is the column at `p`. -/
theorem colSpread_apply (M K : Nat) (c : (⟨2, ![M, 1]⟩ : Shape).Idx → α)
    (h : (⟨2, ![M, 1]⟩ : Shape).Broadcasts ⟨2, ![M, K]⟩) (p : Fin M) (k : Fin K) :
    broadcastTo ⟨2, ![M, K]⟩ c h (ix2 p k) = c (ix2 p (0 : Fin 1)) :=
  broadcastTo_apply c h (ix2 p k) (ix2 p (0 : Fin 1)) (fun a => by
    match a with
    | ⟨0, _⟩ =>
      show p.val = if M = 1 then 0 else p.val
      split
      · have := p.isLt; omega
      · rfl
    | ⟨1, _⟩ => simp)

end Spread

/-! ## The three kinds of stage, over abstract extents -/

/-- Mean pooling: the sums divided by the count column, floored at one and spread over the columns. -/
theorem meanPool_stage (M K : Nat) (gsum : FVec Ideal ⟨2, ![M, K]⟩ .f32) (gcnt : FVec Ideal ⟨2, ![M, 1]⟩ .f32)
    (h1 : (⟨2, ![M, K]⟩ : Shape).ShapeCasts ⟨2, ![M, K]⟩) (h2 : (⟨2, ![M, 1]⟩ : Shape).ShapeCasts ⟨2, ![M, 1]⟩)
    (h3 : (⟨2, ![M, 1]⟩ : Shape).Broadcasts ⟨2, ![M, K]⟩) :
    divf (shapeCast ⟨2, ![M, K]⟩ gsum h1)
        (broadcastTo ⟨2, ![M, K]⟩
          (maximumf (shapeCast ⟨2, ![M, 1]⟩ gcnt h2)
            (broadcast ⟨2, ![M, 1]⟩ (Scalar.ofBits (F := Ideal) .f32 0x3F800000#32))) h3)
      = meanPool gsum gcnt := by
  funext i
  obtain ⟨p, k, rfl⟩ : ∃ (p : Fin M) (k : Fin K), i = ix2 p k := ⟨i 0, i 1, eq_ix2 i⟩
  rw [divf_apply, colSpread_apply, maximumf_apply, shapeCast_self, shapeCast_self, meanPool_apply]
  rfl

/-- A dense layer: the product into the zero accumulator plus the bias row spread over the rows. -/
theorem dense_stage (M K N : Nat) (x : FVec Ideal ⟨2, ![M, K]⟩ .f32) (W : FVec Ideal ⟨2, ![K, N]⟩ .f32)
    (b : FVec Ideal ⟨2, ![1, N]⟩ .f32) (hb : FTy.bits .bf16 < FTy.bits .f32)
    (h1 : (⟨2, ![1, N]⟩ : Shape).ShapeCasts ⟨2, ![1, N]⟩) (h2 : (⟨2, ![1, N]⟩ : Shape).Broadcasts ⟨2, ![M, N]⟩) :
    addf (matmul (DotDims.plain M K N) none (truncf .bf16 x hb) (truncf .bf16 W hb)
          (constant (F := Ideal) ⟨2, ![M, N]⟩ .f32 0x00000000#32))
        (broadcastTo ⟨2, ![M, N]⟩ (shapeCast ⟨2, ![1, N]⟩ b h1) h2)
      = dense x W b := by
  funext i
  obtain ⟨p, q, rfl⟩ : ∃ (p : Fin M) (q : Fin N), i = ix2 p q := ⟨i 0, i 1, eq_ix2 i⟩
  rw [addf_apply, rowSpread_apply, shapeCast_self, dense_apply]
  unfold denseAt
  congr 1
  exact Cert.Lib.RowOps.matmul_zero_apply M K N none (truncf .bf16 x hb) (truncf .bf16 W hb) p q

/-- The larger of an entry and the zero word. -/
theorem relu_stage (M N : Nat) (y : FVec Ideal ⟨2, ![M, N]⟩ .f32) :
    maximumf y (broadcast ⟨2, ![M, N]⟩ (Scalar.ofBits (F := Ideal) .f32 0x00000000#32)) = relu y := rfl

/-! ## The printed contractions are plain products -/

theorem dot1_eq : dot_S256x128_S128x128_S256x128_1_0_0_1_n_n = DotDims.plain 256 128 128 := rfl
theorem dot2_eq : dot_S256x128_S128x64_S256x64_1_0_0_1_n_n = DotDims.plain 256 128 64 := rfl
theorem dot3_eq : dot_S256x64_S64x1_S256x1_1_0_0_1_n_n = DotDims.plain 256 64 1 := rfl

/-! ## The body -/

/-- The pooling head's body is the specification's head. -/
theorem pay3_eq (gsum : Vec Ideal S256x128 .f32) (gcnt : Vec Ideal S256x1 .f32) (W1 : Vec Ideal S128x128 .f32)
    (b1 : Vec Ideal S1x128 .f32) (W2 : Vec Ideal S128x64 .f32) (b2 : Vec Ideal S1x64 .f32) (W3 : Vec Ideal S64x1 .f32)
    (b3 : Vec Ideal S1x1 .f32) :
    k3_pay1 gsum gcnt W1 b1 W2 b2 W3 b3 = poolMlp gsum gcnt W1 b1 W2 b2 W3 b3 := by
  unfold k3_pay1 poolMlp
  rw [dot1_eq, dot2_eq, dot3_eq]
  dsimp only
  rw [meanPool_stage 256 128 gsum gcnt, dense_stage 256 128 128, relu_stage 256 128, dense_stage 256 128 64,
    relu_stage 256 64, dense_stage 256 64 1]

end Cert.KernelIdeal.Hand

end
-- ==== Proof.Region0.lean ====
/-
  The projection kernel (the first pallas call): what its output array holds after the call.

  The grid has ten points; point `t` reads rows `5000·t … 5000·t + 4999` of the node features, the whole weight matrix
  and the whole bias row, and writes the same rows of the output. The body's value on a block is the dense layer
  followed by relu on that block, and an entry of a dense layer depends on one row of its left operand only: so the
  block point `t` writes is rows `5000·t …` of the dense layer of the WHOLE arrays. The ten blocks tile the output
  (row `r` lies in block `r / 5000`), hence the array after the call is that whole-array function.
-/
import proofs.«131596_j2508260901292_2_alg».proof.Proof.KernelIdealFrameP
import proofs.«131596_j2508260901292_2_alg».proof.Proof.PayPool
import Idealize.ShloMosaic.Lib.Pipeline.Value

noncomputable section

namespace Cert.KernelIdeal.Hand

open Cert.KernelIdeal Cert.KernelIdeal.Gen Cert.KernelIdeal.GenP Cert.GraphSage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem off00 : (![0, 0] : Fin 2 → Nat) = fun _ => 0 := funext fun a => by fin_cases a <;> rfl

/-- The printed contraction of the projection is a plain product. -/
theorem dot0_eq : dot_S5000x5_S5x128_S5000x128_1_0_0_1_n_n = DotDims.plain 5000 5 128 := rfl

/-- On a block of 5000 rows the body computes the dense layer with relu of that block. -/
theorem pay0_eq (x : Vec Ideal S5000x5 .f32) (W : Vec Ideal S5x128 .f32) (b : Vec Ideal S1x128 .f32) :
    k0_pay1 x W b = relu (dense x W b) := by
  unfold k0_pay1
  rw [dot0_eq]
  dsimp only
  rw [dense_stage 5000 5 128, relu_stage 5000 128]

/-- Rows of a block against rows of the whole array: equal entries when the block's row is the array's row, the
    weights and the bias are the same, and the columns agree. -/
theorem proj_block (X : Mat 50000 5) (W : Mat 5 128) (b : Mat 1 128) (x0 : Mat 5000 5) (w0 : Mat 5 128) (b0 : Mat 1 128)
    (y : (⟨2, ![5000, 128]⟩ : Shape).Idx) (i : (⟨2, ![50000, 128]⟩ : Shape).Idx)
    (hrow : ∀ k : Fin 5, x0 (ix2 (y 0) k) = X (ix2 (i 0) k)) (hW : w0 = W) (hb : b0 = b) (hcol : y 1 = i 1) :
    relu (dense x0 w0 b0) y = relu (dense X W b) i := by
  subst hW hb
  show max (denseAt x0 w0 b0 (y 0) (y 1)) zeroW = max (denseAt X w0 b0 (i 0) (i 1)) zeroW
  rw [hcol, denseAt_row x0 X w0 b0 (y 0) (i 0) (i 1) hrow]

/-- The index maps over the grid: the feature window and the output window move down one block per point, the weight
    and bias windows stay at the origin. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the dense layer with relu of the whole arrays. -/
theorem flushed0 (c : Dev nD) (t : Fin cfg0.N) :
    (dat0 V c).flushed 3 t = ((cfg0.win 3).blk t).view.read (Elt Ideal)
      (relu (dense (V c main_arg0 : Mat 50000 5) (V c main_arg3 : Mat 5 128) (V c main_v13 : Mat 1 128))) := by
  show (cfg0.win 3).cut (grid0.coords t) ((dat0 V c).after 3 t) = _
  rw [after0_3]
  unfold out0_3
  rw [View.canon_unit_zero off00]
  simp only [View.ld_unit_zero (S := S5000x5) off00, View.ld_unit_zero (S := S5x128) off00, View.ld_unit_zero (S := S1x128) off00]
  rw [pay0_eq]
  obtain ⟨e00, e01, e10, e11, e20, e21, e30, e31⟩ := idx0 t
  funext y
  show relu (dense (iblk0 V c 0 t) (iblk0 V c 1 t) (iblk0 V c 2 t)) y
    = relu (dense (V c main_arg0 : Mat 50000 5) (V c main_arg3 : Mat 5 128) (V c main_v13 : Mat 1 128)) (((cfg0.win 3).blk t).view.emb y)
  refine proj_block _ _ _ _ _ _ y _ (fun k => ?_) ?_ ?_ ?_
  · show V c main_arg0 (((cfg0.win 0).blk t).view.emb (ix2 (y 0) k)) = V c main_arg0 (ix2 ((((cfg0.win 3).blk t).view.emb y) 0) k)
    refine congrArg (V c main_arg0) (funext fun a => Fin.ext ?_)
    match a with
    | ⟨0, _⟩ => show win0_0.index t (0 : Fin 2) * 5000 + 1 * (y 0).val = win0_3.index t (0 : Fin 2) * 5000 + 1 * (y 0).val; omega
    | ⟨1, _⟩ => show win0_0.index t (1 : Fin 2) * 5 + 1 * k.val = k.val; omega
  · funext z
    show V c main_arg3 (((cfg0.win 1).blk t).view.emb z) = V c main_arg3 z
    refine congrArg (V c main_arg3) (funext fun a => Fin.ext ?_)
    match a with
    | ⟨0, _⟩ => show win0_1.index t (0 : Fin 2) * 5 + 1 * (z 0).val = (z 0).val; omega
    | ⟨1, _⟩ => show win0_1.index t (1 : Fin 2) * 128 + 1 * (z 1).val = (z 1).val; omega
  · funext z
    show V c main_v13 (((cfg0.win 2).blk t).view.emb z) = V c main_v13 z
    refine congrArg (V c main_v13) (funext fun a => Fin.ext ?_)
    match a with
    | ⟨0, _⟩ => show win0_2.index t (0 : Fin 2) * 1 + 1 * (z 0).val = (z 0).val; omega
    | ⟨1, _⟩ => show win0_2.index t (1 : Fin 2) * 128 + 1 * (z 1).val = (z 1).val; omega
  · refine Fin.ext ?_
    show (y 1).val = win0_3.index t (1 : Fin 2) * 128 + 1 * (y 1).val
    omega

/-- An index of the output is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v14).slice (win0_3.rect t)).set ↔ _
  rw [View.set_slice_whole, Rect.mem_set_unit]
  exact Iff.rfl

/-- The ten blocks tile the output: row `r` is in block `r / 5000`. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have ht : (i 0).val / 5000 < cfg0.N := by rw [show cfg0.N = 10 from N_0]; omega
  obtain ⟨-, -, -, -, -, -, e30, e31⟩ := idx0 ⟨(i 0).val / 5000, ht⟩
  have e30' : win0_3.index ⟨(i 0).val / 5000, ht⟩ (0 : Fin 2) = (i 0).val / 5000 := e30
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    omega

/-- The output array after the call: the dense layer with relu of the arrays as the call finds them. -/
theorem final0 (c : Dev nD) :
    (dat0 V c).arrAt 3 cfg0.N = relu (dense (V c main_arg0 : Mat 50000 5) (V c main_arg3 : Mat 5 128) (V c main_v13 : Mat 1 128)) :=
  (dat0 V c).arrAt_eq_of_cover 3 _ (fun t _ => flushed0 V c t) cover0

end Cert.KernelIdeal.Hand

end
-- ==== Proof.KChainA.lean ====
/-
  The idealized kernel's buffers at its first four segment boundaries, as pure terms of the launch memory.

  Before the projection call the host stretch cuts the edge list into its source row and its target row, counts each
  node's incoming edges by a scatter-add of ones, takes the reciprocal of the larger of that count and one as a column,
  and lays the projection's bias out as one row; nothing else is written. The projection call leaves its output at the
  dense layer with relu of the node features (Region0) and every other buffer as it was. The next stretch gathers the
  rows of that output at the edges' sources (a negative index counted from the end), scatter-adds them at the edges'
  targets, and lays the first layer's bias out as one row.
-/
import proofs.«131596_j2508260901292_2_alg».proof.Proof.Region0
import Idealize.ShloMosaic.Lib.StableHlo.Run

set_option maxRecDepth 16384

noncomputable section

namespace Cert.KernelIdeal.Hand

open Cert.KernelIdeal Cert.KernelIdeal.Gen Cert.KernelIdeal.GenP Cert.GraphSage
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-! ## The host glue, as functions of the argument arrays -/

/-- The edges' source nodes: row 0 of the edge list. -/
def srcOf (ei : (⟨S2x600000, .i32⟩ : BufTy).Contents (Elt Ideal)) : (⟨S600000, .i32⟩ : BufTy).Contents (Elt Ideal) :=
  shapeCast _ (extractStridedSlice S1x600000 ![0, 0] ei slices_S2x600000_S1x600000_0_0) shapeCasts_S1x600000_S600000

/-- The edges' target nodes: row 1 of the edge list. -/
def dstOf (ei : (⟨S2x600000, .i32⟩ : BufTy).Contents (Elt Ideal)) : (⟨S600000, .i32⟩ : BufTy).Contents (Elt Ideal) :=
  shapeCast _ (extractStridedSlice S1x600000 ![1, 0] ei slices_S2x600000_S1x600000_1_0) shapeCasts_S1x600000_S600000

/-- The reciprocal of the larger of a node's in-degree and one, as a column. -/
def degInv (ei : (⟨S2x600000, .i32⟩ : BufTy).Contents (Elt Ideal)) : (⟨S50000x1, .f32⟩ : BufTy).Contents (Elt Ideal) :=
  broadcastInDim S50000x1 ![0] bcast_S50000_S50000x1_0
    (Host.divf (F := Ideal) (broadcastInDim S50000 ![] bcast_S_S50000 (constant S_ .f32 0x3F800000#32))
      (maximumf
        (Host.scatterAdd scatter_S50000_S600000x1_S600000_n_0_0_1
          (broadcastInDim S50000 ![] bcast_S_S50000 (constant S_ .f32 0x00000000#32))
          (broadcastInDim S600000x1 ![0] bcast_S600000_S600000x1_0 (dstOf ei))
          (broadcastInDim S600000 ![] bcast_S_S600000 (constant S_ .f32 0x3F800000#32)))
        (broadcastInDim S50000 ![] bcast_S_S50000 (constant S_ .f32 0x3F800000#32))))

/-- The sum, at each node, of the feature rows of the sources of its incoming edges. -/
def aggOf (ei : (⟨S2x600000, .i32⟩ : BufTy).Contents (Elt Ideal)) (h : (⟨S50000x128, .f32⟩ : BufTy).Contents (Elt Ideal)) :
    (⟨S50000x128, .f32⟩ : BufTy).Contents (Elt Ideal) :=
  Host.scatterAdd (F := Ideal) scatter_S50000x128_S600000x1_S600000x128_1_0_0_1
    (broadcastInDim S50000x128 ![] bcast_S_S50000x128 (constant S_ .f32 0x00000000#32))
    (broadcastInDim S600000x1 ![0] bcast_S600000_S600000x1_0 (dstOf ei))
    (Host.gather gather_S50000x128_S600000x1_S600000x128_1_0_n_n_0_1_1128 h
      (broadcastInDim S600000x1 ![0] bcast_S600000_S600000x1_0
        (select (cmpi .slt (srcOf ei) (broadcastInDim S600000 ![] bcast_S_S600000 (constantI S_ 32 0#32)))
          (addi (srcOf ei) (broadcastInDim S600000 ![] bcast_S_S600000 (constantI S_ 32 50000#32)))
          (srcOf ei))))

/-- A bias vector laid out as one row. -/
def biasRow (b : (⟨S128, .f32⟩ : BufTy).Contents (Elt Ideal)) : (⟨S1x128, .f32⟩ : BufTy).Contents (Elt Ideal) :=
  shapeCast _ b shapeCasts_S128_S1x128

/-! ## At the projection call's entry -/

theorem V1_arg0 (c : Dev nD) : V1 m ρ c main_arg0 = m ((c : Thread nD τ).loc main_arg0) := by
  show StableHlo.after hostOps0 (W0 m ρ c) (Proc.devRef .tc main_arg0) = _
  after_results

theorem V1_arg3 (c : Dev nD) : V1 m ρ c main_arg3 = m ((c : Thread nD τ).loc main_arg3) := by
  show StableHlo.after hostOps0 (W0 m ρ c) (Proc.devRef .tc main_arg3) = _
  after_results

theorem V1_v13 (c : Dev nD) : V1 m ρ c main_v13 = biasRow (m ((c : Thread nD τ).loc main_arg4)) := by
  show StableHlo.after hostOps0 (W0 m ρ c) (Proc.devRef .tc main_v13) = _
  after_results
  rfl

theorem W1_v1 (c : Dev nD) : W1 m ρ c (Proc.devRef .tc main_v1) = srcOf (m ((c : Thread nD τ).loc main_arg1)) := by
  show StableHlo.after hostOps0 (W0 m ρ c) (Proc.devRef .tc main_v1) = _
  after_results
  rfl

theorem W1_v3 (c : Dev nD) : W1 m ρ c (Proc.devRef .tc main_v3) = dstOf (m ((c : Thread nD τ).loc main_arg1)) := by
  show StableHlo.after hostOps0 (W0 m ρ c) (Proc.devRef .tc main_v3) = _
  after_results
  rfl

theorem W1_v12 (c : Dev nD) : W1 m ρ c (Proc.devRef .tc main_v12) = degInv (m ((c : Thread nD τ).loc main_arg1)) := by
  show StableHlo.after hostOps0 (W0 m ρ c) (Proc.devRef .tc main_v12) = _
  after_results
  rfl

end Cert.KernelIdeal.Hand

end
-- ==== Proof.PaySage.lean ====
/-
  A graph layer's body on a block of rows is the specification's layer on that block, over the extended reals.

  The body computes, entry by entry: the neighbour sums scaled by the reciprocal-degree column, through `Wl`, plus
  the bias row, plus the node's own features through `Wr` (the linear part); then divides each row by the larger of
  its Euclidean norm and the floor, and takes the larger of the result and zero. Read at `(p, q)`:
  * each product into the zero accumulator is the sum over the contraction axis (format changes are the identity);
  * the bias row and the degree column, spread over the block, read the row at `q` and the column at `p`;
  * the sum of squares along a row, cast from a vector to a column and spread back over the row, reads the sum over
    the row's entries of the linear part squared;
  and these are the terms of `sageLinAt`, `normAt` and `sageAt`.
-/
import proofs.«131596_j2508260901292_2_alg».proof.Proof.Gen.KernelIdeal.Skeleton
import proofs.«131596_j2508260901292_2_alg».proof.Proof.Spec
import proofs.«131596_j2508260901292_2_alg».proof.Proof.LibRowOps
import Idealize.ShloMosaic.Lib.ValueLayout

noncomputable section

open scoped BigOperators

namespace Cert.KernelIdeal.Hand

open Cert.KernelIdeal Cert.KernelIdeal.Gen Cert.GraphSage Idealize.ShloMosaic Idealize.ShloMosaic.ValueIdx

/-! ## Layout and reduction steps read at an index -/

section Steps

variable {α : Type}

/-- A column `[a, 1]` spread over the columns of an `[a, b]` array reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Steps

/-- The sum along the rows of an `[M, N]` array, from the zero word, reads at `p` the sum over the row's entries. -/
theorem rowSum_apply (M N : ℕ) (src : FVec Ideal ⟨2, ![M, N]⟩ .f32)
    (h : (⟨2, ![M, N]⟩ : Shape).Reduces [1] ⟨1, ![M]⟩) (hφ : FKind.Formats .f32)
    (hacc : (0x00000000#32 : BitVec 32) = 0x00000000#32) (p : Fin M) :
    multiReduction (F := Ideal) .add [1] ⟨1, ![M]⟩ src 0x00000000#32 h hφ hacc (ix1 p) = ∑ k : Fin N, src (ix2 p k) := by
  refine (Ideal.multiReduction_add_single src 0x00000000#32 h hφ hacc (ix1 p)).trans ?_
  refine Finset.sum_congr rfl fun k _ => congrArg src ?_
  funext a
  match a with
  | ⟨0, _⟩ => exact Fin.ext rfl
  | ⟨1, _⟩ => exact Fin.ext rfl

/-- The printed dimension numbers are the plain product's. -/
theorem dot_eq_plain : dot_S5000x128_S128x128_S5000x128_1_0_0_1_n_n = DotDims.plain 5000 128 128 := rfl

/-! ## The two halves of the layer's body read at an index -/

/-- The linear part as the body spells it — the neighbour sums scaled by the degree column through `Wl`, plus the bias
    row, plus the features through `Wr` — read at `(p, q)`. -/
theorem lin_apply (agg : FVec Ideal S5000x128 .f32) (deg : FVec Ideal S5000x1 .f32) (h : FVec Ideal S5000x128 .f32)
    (Wl : FVec Ideal S128x128 .f32) (bl : FVec Ideal S1x128 .f32) (Wr : FVec Ideal S128x128 .f32)
    (h1 : S5000x128.ShapeCasts S5000x128) (h2 : S5000x1.ShapeCasts S5000x1) (h3 : S5000x1.Broadcasts S5000x128)
    (h4 : S1x128.ShapeCasts S1x128) (h5 : S1x128.Broadcasts S5000x128) (hb : FTy.bits .bf16 < FTy.bits .f32)
    (p : Fin 5000) (q : Fin 128) :
    addf
        (addf
          (matmul dot_S5000x128_S128x128_S5000x128_1_0_0_1_n_n none
            (truncf .bf16 (mulf (shapeCast S5000x128 agg h1) (broadcastTo S5000x128 (shapeCast S5000x1 deg h2) h3)) hb)
            (truncf .bf16 Wl hb) (constant S5000x128 .f32 0x00000000#32))
          (broadcastTo S5000x128 (shapeCast S1x128 bl h4) h5))
        (matmul dot_S5000x128_S128x128_S5000x128_1_0_0_1_n_n none (truncf .bf16 (shapeCast S5000x128 h h1) hb)
          (truncf .bf16 Wr hb) (constant S5000x128 .f32 0x00000000#32))
        (ix2 p q)
      = sageLinAt agg h deg Wl bl Wr p q := by
  rw [shapeCast_self agg h1, shapeCast_self deg h2, shapeCast_self bl h4, shapeCast_self h h1, dot_eq_plain]
  show FloatOps.matmul (DotDims.plain 5000 128 128) none _ _ _ (ix2 p q) + broadcastTo S5000x128 bl h5 (ix2 p q)
      + FloatOps.matmul (DotDims.plain 5000 128 128) none _ _ _ (ix2 p q) = _
  rw [broadcastTo_1b_ab_apply bl h5 p q, Cert.Lib.RowOps.matmul_zero_apply, Cert.Lib.RowOps.matmul_zero_apply]
  unfold sageLinAt
  simp only [truncf_apply, mulf_apply, broadcastTo_a1_ab_apply]

/-- Row normalisation and the final maximum as the body spells them, over any array `L`, read at `(p, q)`. -/
theorem norm_apply (L : FVec Ideal S5000x128 .f32) (h1 : S5000x128.Reduces [1] S5000) (hφ : FKind.Formats .f32)
    (hacc : (0x00000000#32 : BitVec 32) = 0x00000000#32) (h2 : S5000.ShapeCasts S5000x1)
    (h3 : S5000x1.Broadcasts S5000x128) (p : Fin 5000) (q : Fin 128) :
    maximumf
        (divf L
          (broadcastTo S5000x128
            (maximumf (sqrt (shapeCast S5000x1 (multiReduction .add [1] S5000 (mulf L L) 0x00000000#32 h1 hφ hacc) h2))
              (broadcast S5000x1 (FloatOps.ofBits .f32 0x2B8CBCCC#32)))
            h3))
        (broadcast S5000x128 (FloatOps.ofBits .f32 0x00000000#32)) (ix2 p q)
      = max (normAt (fun j => L (ix2 p j)) q) zeroW := by
  show max (Ideal.div (L (ix2 p q)) (broadcastTo S5000x128 _ h3 (ix2 p q))) zeroW = _
  rw [broadcastTo_a1_ab_apply _ h3 p q]
  show max (Ideal.div (L (ix2 p q)) (max (Ideal.sqrt (shapeCast S5000x1 _ h2 (ix2 p (0 : Fin 1)))) floorW)) zeroW = _
  rw [shapeCast_a_a1_apply _ h2 p 0, rowSum_apply 5000 128 (mulf L L) h1 hφ hacc p]
  rfl

/-! ## The layer's body is the specification's layer -/

/-- The first graph layer's body on a block of rows is the specification's layer on that block. -/
theorem pay1_eq (agg : Vec Ideal S5000x128 .f32) (deg : Vec Ideal S5000x1 .f32) (h : Vec Ideal S5000x128 .f32)
    (Wl : Vec Ideal S128x128 .f32) (bl : Vec Ideal S1x128 .f32) (Wr : Vec Ideal S128x128 .f32) :
    k1_pay1 agg deg h Wl bl Wr = sage agg h deg Wl bl Wr := by
  funext j
  obtain ⟨p, q, rfl⟩ : ∃ (p : Fin 5000) (q : Fin 128), j = ix2 p q := ⟨j 0, j 1, eq_ix2 j⟩
  unfold k1_pay1
  refine (norm_apply _ _ _ _ _ _ p q).trans ?_
  show _ = max (normAt (fun j => sageLinAt agg h deg Wl bl Wr p j) q) zeroW
  refine congrArg (fun z : Fin 128 → EReal => max (normAt z q) zeroW) (funext fun j => ?_)
  exact lin_apply agg deg h Wl bl Wr _ _ _ _ _ _ p j

/-- The second graph layer's body is the same term. -/
theorem pay2_eq (agg : Vec Ideal S5000x128 .f32) (deg : Vec Ideal S5000x1 .f32) (h : Vec Ideal S5000x128 .f32)
    (Wl : Vec Ideal S128x128 .f32) (bl : Vec Ideal S1x128 .f32) (Wr : Vec Ideal S128x128 .f32) :
    k2_pay1 agg deg h Wl bl Wr = sage agg h deg Wl bl Wr :=
  (show k2_pay1 agg deg h Wl bl Wr = k1_pay1 agg deg h Wl bl Wr from rfl).trans (pay1_eq agg deg h Wl bl Wr)

end Cert.KernelIdeal.Hand

end
-- ==== Proof.Region12.lean ====
/-
  The two graph-layer kernels (the second and third kernel calls of the program): what their output arrays hold after the call.

  Each grid has ten points; point `t` reads rows `5000·t … 5000·t + 4999` of the neighbour sums, of the node features
  and of the reciprocal-degree column, the two whole weight matrices and the whole bias row, and writes the same rows
  of the output. The body's value on a block is the specification's layer on that block, and an entry of a layer in
  row `p` depends only on row `p` of the neighbour sums, of the features and of the scale (the row sum of squares of
  the normalisation runs along that same row): so the block point `t` writes is rows `5000·t …` of the layer of the
  WHOLE arrays. The ten blocks tile the output (row `r` lies in block `r / 5000`), hence the array after the call is
  that whole-array function.
-/
import proofs.«131596_j2508260901292_2_alg».proof.Proof.KernelIdealFrameP
import proofs.«131596_j2508260901292_2_alg».proof.Proof.PaySage
import proofs.«131596_j2508260901292_2_alg».proof.Proof.Spec
import Idealize.ShloMosaic.Lib.Pipeline.Value

noncomputable section

namespace Cert.KernelIdeal.Hand

open Cert.KernelIdeal Cert.KernelIdeal.Gen Cert.KernelIdeal.GenP Cert.GraphSage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a rank-two rectangle, however spelt. -/
theorem zeroOffsets : (![0, 0] : Fin 2 → Nat) = fun _ => 0 := funext fun a => by fin_cases a <;> rfl

/-- Rows of a block against rows of the whole arrays: equal entries when the block's row of the neighbour sums, of the
    features and of the scale is the arrays' row, the weights and the bias are the same, and the columns agree. -/
theorem sage_block (A H : Mat 50000 128) (D : Mat 50000 1) (Wl : Mat 128 128) (bl : Mat 1 128) (Wr : Mat 128 128)
    (a0 h0 : Mat 5000 128) (d0 : Mat 5000 1) (wl0 : Mat 128 128) (bl0 : Mat 1 128) (wr0 : Mat 128 128)
    (y : (⟨2, ![5000, 128]⟩ : Shape).Idx) (i : (⟨2, ![50000, 128]⟩ : Shape).Idx)
    (ha : ∀ k : Fin 128, a0 (ix2 (y 0) k) = A (ix2 (i 0) k)) (hh : ∀ k : Fin 128, h0 (ix2 (y 0) k) = H (ix2 (i 0) k))
    (hd : d0 (ix2 (y 0) (0 : Fin 1)) = D (ix2 (i 0) (0 : Fin 1)))
    (hWl : wl0 = Wl) (hbl : bl0 = bl) (hWr : wr0 = Wr) (hcol : y 1 = i 1) :
    sage a0 h0 d0 wl0 bl0 wr0 y = sage A H D Wl bl Wr i := by
  subst hWl hbl hWr
  show sageAt a0 h0 d0 wl0 bl0 wr0 (y 0) (y 1) = sageAt A H D wl0 bl0 wr0 (i 0) (i 1)
  rw [hcol, sageAt_row a0 h0 d0 A H D wl0 bl0 wr0 (y 0) (i 0) (i 1) ha hh hd]

/-! ## The first graph layer's call -/

/-- The index maps over the grid: the neighbour-sum, feature, scale and output windows move down one block per point,
    the two weight windows and the bias window stay at the origin. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is block `t` of the graph layer of the whole arrays. -/
theorem flushed1 (c : Dev nD) (t : Fin cfg1.N) :
    (dat1 V c).flushed 6 t = ((cfg1.win 6).blk t).view.read (Elt Ideal)
      (sage (V c main_v24 : Mat 50000 128) (V c main_v14 : Mat 50000 128) (V c main_v12 : Mat 50000 1) (V c main_arg5 : Mat 128 128)
        (V c main_v25 : Mat 1 128) (V c main_arg7 : Mat 128 128)) := by
  show (cfg1.win 6).cut (grid1.coords t) ((dat1 V c).after 6 t) = _
  rw [after1_6]
  unfold out1_6
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]
  rw [pay1_eq]
  obtain ⟨e00, e01, e10, e11, e20, e21, e30, e31, e40, e41, e50, e51, e60, e61⟩ := idx1 t
  funext y
  show sage (iblk1 V c 0 t) (iblk1 V c 1 t) (iblk1 V c 2 t) (iblk1 V c 3 t) (iblk1 V c 4 t) (iblk1 V c 5 t) y
    = (sage (V c main_v24 : Mat 50000 128) (V c main_v14 : Mat 50000 128) (V c main_v12 : Mat 50000 1) (V c main_arg5 : Mat 128 128)
        (V c main_v25 : Mat 1 128) (V c main_arg7 : Mat 128 128)) (((cfg1.win 6).blk t).view.emb y)
  refine sage_block _ _ _ _ _ _ _ _ _ _ _ _ y _ (fun k => ?_) (fun k => ?_) ?_ ?_ ?_ ?_ ?_
  · show V c main_v24 (((cfg1.win 0).blk t).view.emb (ix2 (y 0) k)) = V c main_v24 (ix2 ((((cfg1.win 6).blk t).view.emb y) 0) k)
    refine congrArg (V c main_v24) (funext fun a => Fin.ext ?_)
    match a with
    | ⟨0, _⟩ => show win1_0.index t (0 : Fin 2) * 5000 + 1 * (y 0).val = win1_6.index t (0 : Fin 2) * 5000 + 1 * (y 0).val; omega
    | ⟨1, _⟩ => show win1_0.index t (1 : Fin 2) * 128 + 1 * k.val = k.val; omega
  · show V c main_v14 (((cfg1.win 1).blk t).view.emb (ix2 (y 0) k)) = V c main_v14 (ix2 ((((cfg1.win 6).blk t).view.emb y) 0) k)
    refine congrArg (V c main_v14) (funext fun a => Fin.ext ?_)
    match a with
    | ⟨0, _⟩ => show win1_1.index t (0 : Fin 2) * 5000 + 1 * (y 0).val = win1_6.index t (0 : Fin 2) * 5000 + 1 * (y 0).val; omega
    | ⟨1, _⟩ => show win1_1.index t (1 : Fin 2) * 128 + 1 * k.val = k.val; omega
  · show V c main_v12 (((cfg1.win 2).blk t).view.emb (ix2 (y 0) (0 : Fin 1))) = V c main_v12 (ix2 ((((cfg1.win 6).blk t).view.emb y) 0) (0 : Fin 1))
    refine congrArg (V c main_v12) (funext fun a => Fin.ext ?_)
    match a with
    | ⟨0, _⟩ => show win1_2.index t (0 : Fin 2) * 5000 + 1 * (y 0).val = win1_6.index t (0 : Fin 2) * 5000 + 1 * (y 0).val; omega
    | ⟨1, _⟩ => show win1_2.index t (1 : Fin 2) * 1 + 1 * 0 = 0; omega
  · funext z
    show V c main_arg5 (((cfg1.win 3).blk t).view.emb z) = V c main_arg5 z
    refine congrArg (V c main_arg5) (funext fun a => Fin.ext ?_)
    match a with
    | ⟨0, _⟩ => show win1_3.index t (0 : Fin 2) * 128 + 1 * (z 0).val = (z 0).val; omega
    | ⟨1, _⟩ => show win1_3.index t (1 : Fin 2) * 128 + 1 * (z 1).val = (z 1).val; omega
  · funext z
    show V c main_v25 (((cfg1.win 4).blk t).view.emb z) = V c main_v25 z
    refine congrArg (V c main_v25) (funext fun a => Fin.ext ?_)
    match a with
    | ⟨0, _⟩ => show win1_4.index t (0 : Fin 2) * 1 + 1 * (z 0).val = (z 0).val; omega
    | ⟨1, _⟩ => show win1_4.index t (1 : Fin 2) * 128 + 1 * (z 1).val = (z 1).val; omega
  · funext z
    show V c main_arg7 (((cfg1.win 5).blk t).view.emb z) = V c main_arg7 z
    refine congrArg (V c main_arg7) (funext fun a => Fin.ext ?_)
    match a with
    | ⟨0, _⟩ => show win1_5.index t (0 : Fin 2) * 128 + 1 * (z 0).val = (z 0).val; omega
    | ⟨1, _⟩ => show win1_5.index t (1 : Fin 2) * 128 + 1 * (z 1).val = (z 1).val; omega
  · refine Fin.ext ?_
    show (y 1).val = win1_6.index t (1 : Fin 2) * 128 + 1 * (y 1).val
    omega

/-- An index of the output is in point `t`'s block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v26).slice (win1_6.rect t)).set ↔ _
  rw [View.set_slice_whole, Rect.mem_set_unit]
  exact Iff.rfl

/-- The ten blocks tile the output: row `r` is in block `r / 5000`. -/
theorem cover1 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have ht : (i 0).val / 5000 < cfg1.N := by rw [show cfg1.N = 10 from N_1]; omega
  obtain ⟨-, -, -, -, -, -, -, -, -, -, -, -, e60, e61⟩ := idx1 ⟨(i 0).val / 5000, ht⟩
  have e60' : win1_6.index ⟨(i 0).val / 5000, ht⟩ (0 : Fin 2) = (i 0).val / 5000 := e60
  refine ⟨⟨(i 0).val / 5000, ht⟩, flush1_6 _, ?_⟩
  rw [mem_blk1]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    omega
  | ⟨1, _⟩ =>
    show win1_6.index ⟨(i 0).val / 5000, ht⟩ (1 : Fin 2) * 128 ≤ (i 1).val ∧ (i 1).val < win1_6.index ⟨(i 0).val / 5000, ht⟩ (1 : Fin 2) * 128 + 128
    omega

/-- The output array after the call: the graph layer of the arrays as the call finds them. -/
theorem final1 (c : Dev nD) :
    (dat1 V c).arrAt 6 cfg1.N = sage (V c main_v24 : Mat 50000 128) (V c main_v14 : Mat 50000 128) (V c main_v12 : Mat 50000 1)
      (V c main_arg5 : Mat 128 128) (V c main_v25 : Mat 1 128) (V c main_arg7 : Mat 128 128) :=
  (dat1 V c).arrAt_eq_of_cover 6 _ (fun t _ => flushed1 V c t) cover1

/-! ## The second graph layer's call -/

/-- The index maps over the grid: the neighbour-sum, feature, scale and output windows move down one block per point,
    the two weight windows and the bias window stay at the origin. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What point `t` writes back is block `t` of the graph layer of the whole arrays. -/
theorem flushed2 (c : Dev nD) (t : Fin cfg2.N) :
    (dat2 V c).flushed 6 t = ((cfg2.win 6).blk t).view.read (Elt Ideal)
      (sage (V c main_v36 : Mat 50000 128) (V c main_v26 : Mat 50000 128) (V c main_v12 : Mat 50000 1) (V c main_arg8 : Mat 128 128)
        (V c main_v37 : Mat 1 128) (V c main_arg10 : Mat 128 128)) := by
  show (cfg2.win 6).cut (grid2.coords t) ((dat2 V c).after 6 t) = _
  rw [after2_6]
  unfold out2_6
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]
  rw [pay2_eq]
  obtain ⟨e00, e01, e10, e11, e20, e21, e30, e31, e40, e41, e50, e51, e60, e61⟩ := idx2 t
  funext y
  show sage (iblk2 V c 0 t) (iblk2 V c 1 t) (iblk2 V c 2 t) (iblk2 V c 3 t) (iblk2 V c 4 t) (iblk2 V c 5 t) y
    = (sage (V c main_v36 : Mat 50000 128) (V c main_v26 : Mat 50000 128) (V c main_v12 : Mat 50000 1) (V c main_arg8 : Mat 128 128)
        (V c main_v37 : Mat 1 128) (V c main_arg10 : Mat 128 128)) (((cfg2.win 6).blk t).view.emb y)
  refine sage_block _ _ _ _ _ _ _ _ _ _ _ _ y _ (fun k => ?_) (fun k => ?_) ?_ ?_ ?_ ?_ ?_
  · show V c main_v36 (((cfg2.win 0).blk t).view.emb (ix2 (y 0) k)) = V c main_v36 (ix2 ((((cfg2.win 6).blk t).view.emb y) 0) k)
    refine congrArg (V c main_v36) (funext fun a => Fin.ext ?_)
    match a with
    | ⟨0, _⟩ => show win2_0.index t (0 : Fin 2) * 5000 + 1 * (y 0).val = win2_6.index t (0 : Fin 2) * 5000 + 1 * (y 0).val; omega
    | ⟨1, _⟩ => show win2_0.index t (1 : Fin 2) * 128 + 1 * k.val = k.val; omega
  · show V c main_v26 (((cfg2.win 1).blk t).view.emb (ix2 (y 0) k)) = V c main_v26 (ix2 ((((cfg2.win 6).blk t).view.emb y) 0) k)
    refine congrArg (V c main_v26) (funext fun a => Fin.ext ?_)
    match a with
    | ⟨0, _⟩ => show win2_1.index t (0 : Fin 2) * 5000 + 1 * (y 0).val = win2_6.index t (0 : Fin 2) * 5000 + 1 * (y 0).val; omega
    | ⟨1, _⟩ => show win2_1.index t (1 : Fin 2) * 128 + 1 * k.val = k.val; omega
  · show V c main_v12 (((cfg2.win 2).blk t).view.emb (ix2 (y 0) (0 : Fin 1))) = V c main_v12 (ix2 ((((cfg2.win 6).blk t).view.emb y) 0) (0 : Fin 1))
    refine congrArg (V c main_v12) (funext fun a => Fin.ext ?_)
    match a with
    | ⟨0, _⟩ => show win2_2.index t (0 : Fin 2) * 5000 + 1 * (y 0).val = win2_6.index t (0 : Fin 2) * 5000 + 1 * (y 0).val; omega
    | ⟨1, _⟩ => show win2_2.index t (1 : Fin 2) * 1 + 1 * 0 = 0; omega
  · funext z
    show V c main_arg8 (((cfg2.win 3).blk t).view.emb z) = V c main_arg8 z
    refine congrArg (V c main_arg8) (funext fun a => Fin.ext ?_)
    match a with
    | ⟨0, _⟩ => show win2_3.index t (0 : Fin 2) * 128 + 1 * (z 0).val = (z 0).val; omega
    | ⟨1, _⟩ => show win2_3.index t (1 : Fin 2) * 128 + 1 * (z 1).val = (z 1).val; omega
  · funext z
    show V c main_v37 (((cfg2.win 4).blk t).view.emb z) = V c main_v37 z
    refine congrArg (V c main_v37) (funext fun a => Fin.ext ?_)
    match a with
    | ⟨0, _⟩ => show win2_4.index t (0 : Fin 2) * 1 + 1 * (z 0).val = (z 0).val; omega
    | ⟨1, _⟩ => show win2_4.index t (1 : Fin 2) * 128 + 1 * (z 1).val = (z 1).val; omega
  · funext z
    show V c main_arg10 (((cfg2.win 5).blk t).view.emb z) = V c main_arg10 z
    refine congrArg (V c main_arg10) (funext fun a => Fin.ext ?_)
    match a with
    | ⟨0, _⟩ => show win2_5.index t (0 : Fin 2) * 128 + 1 * (z 0).val = (z 0).val; omega
    | ⟨1, _⟩ => show win2_5.index t (1 : Fin 2) * 128 + 1 * (z 1).val = (z 1).val; omega
  · refine Fin.ext ?_
    show (y 1).val = win2_6.index t (1 : Fin 2) * 128 + 1 * (y 1).val
    omega

/-- An index of the output is in point `t`'s block iff each coordinate is in the block's range on its axis. -/
theorem mem_blk2 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v38).slice (win2_6.rect t)).set ↔ _
  rw [View.set_slice_whole, Rect.mem_set_unit]
  exact Iff.rfl

/-- The ten blocks tile the output: row `r` is in block `r / 5000`. -/
theorem cover2 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have ht : (i 0).val / 5000 < cfg2.N := by rw [show cfg2.N = 10 from N_2]; omega
  obtain ⟨-, -, -, -, -, -, -, -, -, -, -, -, e60, e61⟩ := idx2 ⟨(i 0).val / 5000, ht⟩
  have e60' : win2_6.index ⟨(i 0).val / 5000, ht⟩ (0 : Fin 2) = (i 0).val / 5000 := e60
  refine ⟨⟨(i 0).val / 5000, ht⟩, flush2_6 _, ?_⟩
  rw [mem_blk2]
  intro a
  match a with
  | ⟨0, _⟩ =>
    show win2_6.index ⟨(i 0).val / 5000, ht⟩ (0 : Fin 2) * 5000 ≤ (i 0).val ∧ (i 0).val < win2_6.index ⟨(i 0).val / 5000, ht⟩ (0 : Fin 2) * 5000 + 5000
    omega
  | ⟨1, _⟩ =>
    show win2_6.index ⟨(i 0).val / 5000, ht⟩ (1 : Fin 2) * 128 ≤ (i 1).val ∧ (i 1).val < win2_6.index ⟨(i 0).val / 5000, ht⟩ (1 : Fin 2) * 128 + 128
    omega

/-- The output array after the call: the graph layer of the arrays as the call finds them. -/
theorem final2 (c : Dev nD) :
    (dat2 V c).arrAt 6 cfg2.N = sage (V c main_v36 : Mat 50000 128) (V c main_v26 : Mat 50000 128) (V c main_v12 : Mat 50000 1)
      (V c main_arg8 : Mat 128 128) (V c main_v37 : Mat 1 128) (V c main_arg10 : Mat 128 128) :=
  (dat2 V c).arrAt_eq_of_cover 6 _ (fun t _ => flushed2 V c t) cover2

end Cert.KernelIdeal.Hand

end
-- ==== Proof.Region3.lean ====
/-
  The pooling head (the last pallas call): what its output array holds after the call.

  The grid has one point, and at that point every window's block is its whole array: the eight operands are read
  whole, and the one block written back is the whole output. The body's value on the blocks is the specification's
  head of the blocks, hence of the arrays as the call finds them; the one block covers the output, so the array after
  the call is that function.
-/
import proofs.«131596_j2508260901292_2_alg».proof.Proof.KernelIdealFrameP
import proofs.«131596_j2508260901292_2_alg».proof.Proof.PayPool
import proofs.«131596_j2508260901292_2_alg».proof.Proof.Spec
import Idealize.ShloMosaic.Lib.Pipeline.Value

noncomputable section

namespace Cert.KernelIdeal.Hand

open Cert.KernelIdeal Cert.KernelIdeal.Gen Cert.KernelIdeal.GenP Cert.GraphSage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The origin of a rank-two array. -/
theorem origin2 : (![0, 0] : Fin 2 → Nat) = fun _ => 0 := funext fun a => by fin_cases a <;> rfl

/-! ## The index maps over the grid: every window stays at the origin -/

theorem idx3_0 : ∀ t : Fin cfg3.N, win3_0.index t (0 : Fin 2) = 0 ∧ win3_0.index t (1 : Fin 2) = 0 :=
  (by decide +kernel : ∀ t : Fin grid3.N, _)
theorem idx3_1 : ∀ t : Fin cfg3.N, win3_1.index t (0 : Fin 2) = 0 ∧ win3_1.index t (1 : Fin 2) = 0 :=
  (by decide +kernel : ∀ t : Fin grid3.N, _)
theorem idx3_2 : ∀ t : Fin cfg3.N, win3_2.index t (0 : Fin 2) = 0 ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_7 : ∀ t : Fin cfg3.N, win3_7.index t (0 : Fin 2) = 0 ∧ win3_7.index t (1 : Fin 2) = 0 :=
  (by decide +kernel : ∀ t : Fin grid3.N, _)
theorem idx3_8 : ∀ t : Fin cfg3.N, win3_8.index t (0 : Fin 2) = 0 ∧ win3_8.index t (1 : Fin 2) = 0 :=
  (by decide +kernel : ∀ t : Fin grid3.N, _)

/-! ## Each block is its whole array -/

/-- Window 0's block at the one point is its whole array. -/
theorem blk3_0 (c : Dev nD) (t : Fin cfg3.N) : (iblk3 V c 0 t : Mat 256 128) = V c main_v41 := by
  obtain ⟨h0, h1⟩ := idx3_0 t
  funext z
  show V c main_v41 (((cfg3.win 0).blk t).view.emb z) = V c main_v41 z
  refine congrArg (V c main_v41) (funext fun a => Fin.ext ?_)
  match a with
  | ⟨0, _⟩ => show win3_0.index t (0 : Fin 2) * 256 + 1 * (z 0).val = (z 0).val; omega
  | ⟨1, _⟩ => show win3_0.index t (1 : Fin 2) * 128 + 1 * (z 1).val = (z 1).val; omega

/-- Window 1's block at the one point is its whole array. -/
theorem blk3_1 (c : Dev nD) (t : Fin cfg3.N) : (iblk3 V c 1 t : Mat 256 1) = V c main_v46 := by
  obtain ⟨h0, h1⟩ := idx3_1 t
  funext z
  show V c main_v46 (((cfg3.win 1).blk t).view.emb z) = V c main_v46 z
  refine congrArg (V c main_v46) (funext fun a => Fin.ext ?_)
  match a with
  | ⟨0, _⟩ => show win3_1.index t (0 : Fin 2) * 256 + 1 * (z 0).val = (z 0).val; omega
  | ⟨1, _⟩ => show win3_1.index t (1 : Fin 2) * 1 + 1 * (z 1).val = (z 1).val; omega

/-- Window 2's block at the one point is its whole array. -/
theorem blk3_2 (c : Dev nD) (t : Fin cfg3.N) : (iblk3 V c 2 t : Mat 128 128) = V c main_arg11 := by
  obtain ⟨h0, h1⟩ := idx3_2 t
  funext z
  show V c main_arg11 (((cfg3.win 2).blk t).view.emb z) = V c main_arg11 z
  refine congrArg (V c main_arg11) (funext fun a => Fin.ext ?_)
  match a with
  | ⟨0, _⟩ => show win3_2.index t (0 : Fin 2) * 128 + 1 * (z 0).val = (z 0).val; omega
  | ⟨1, _⟩ => show win3_2.index t (1 : Fin 2) * 128 + 1 * (z 1).val = (z 1).val; omega

/-- Window 3's block at the one point is its whole array. -/
theorem blk3_3 (c : Dev nD) (t : Fin cfg3.N) : (iblk3 V c 3 t : Mat 1 128) = V c main_v47 := by
  obtain ⟨h0, h1⟩ := idx3_3 t
  funext z
  show V c main_v47 (((cfg3.win 3).blk t).view.emb z) = V c main_v47 z
  refine congrArg (V c main_v47) (funext fun a => Fin.ext ?_)
  match a with
  | ⟨0, _⟩ => show win3_3.index t (0 : Fin 2) * 1 + 1 * (z 0).val = (z 0).val; omega
  | ⟨1, _⟩ => show win3_3.index t (1 : Fin 2) * 128 + 1 * (z 1).val = (z 1).val; omega

/-- Window 4's block at the one point is its whole array. -/
theorem blk3_4 (c : Dev nD) (t : Fin cfg3.N) : (iblk3 V c 4 t : Mat 128 64) = V c main_arg13 := by
  obtain ⟨h0, h1⟩ := idx3_4 t
  funext z
  show V c main_arg13 (((cfg3.win 4).blk t).view.emb z) = V c main_arg13 z
  refine congrArg (V c main_arg13) (funext fun a => Fin.ext ?_)
  match a with
  | ⟨0, _⟩ => show win3_4.index t (0 : Fin 2) * 128 + 1 * (z 0).val = (z 0).val; omega
  | ⟨1, _⟩ => show win3_4.index t (1 : Fin 2) * 64 + 1 * (z 1).val = (z 1).val; omega

/-- Window 5's block at the one point is its whole array. -/
theorem blk3_5 (c : Dev nD) (t : Fin cfg3.N) : (iblk3 V c 5 t : Mat 1 64) = V c main_v48 := by
  obtain ⟨h0, h1⟩ := idx3_5 t
  funext z
  show V c main_v48 (((cfg3.win 5).blk t).view.emb z) = V c main_v48 z
  refine congrArg (V c main_v48) (funext fun a => Fin.ext ?_)
  match a with
  | ⟨0, _⟩ => show win3_5.index t (0 : Fin 2) * 1 + 1 * (z 0).val = (z 0).val; omega
  | ⟨1, _⟩ => show win3_5.index t (1 : Fin 2) * 64 + 1 * (z 1).val = (z 1).val; omega

/-- Window 6's block at the one point is its whole array. -/
theorem blk3_6 (c : Dev nD) (t : Fin cfg3.N) : (iblk3 V c 6 t : Mat 64 1) = V c main_arg15 := by
  obtain ⟨h0, h1⟩ := idx3_6 t
  funext z
  show V c main_arg15 (((cfg3.win 6).blk t).view.emb z) = V c main_arg15 z
  refine congrArg (V c main_arg15) (funext fun a => Fin.ext ?_)
  match a with
  | ⟨0, _⟩ => show win3_6.index t (0 : Fin 2) * 64 + 1 * (z 0).val = (z 0).val; omega
  | ⟨1, _⟩ => show win3_6.index t (1 : Fin 2) * 1 + 1 * (z 1).val = (z 1).val; omega

/-- Window 7's block at the one point is its whole array. -/
theorem blk3_7 (c : Dev nD) (t : Fin cfg3.N) : (iblk3 V c 7 t : Mat 1 1) = V c main_v49 := by
  obtain ⟨h0, h1⟩ := idx3_7 t
  funext z
  show V c main_v49 (((cfg3.win 7).blk t).view.emb z) = V c main_v49 z
  refine congrArg (V c main_v49) (funext fun a => Fin.ext ?_)
  match a with
  | ⟨0, _⟩ => show win3_7.index t (0 : Fin 2) * 1 + 1 * (z 0).val = (z 0).val; omega
  | ⟨1, _⟩ => show win3_7.index t (1 : Fin 2) * 1 + 1 * (z 1).val = (z 1).val; omega

/-- The output window's block sits at the origin of its array. -/
theorem emb3 (t : Fin cfg3.N) (y : S256x1.Idx) : ((cfg3.win 8).blk t).view.emb y = y := by
  obtain ⟨h0, h1⟩ := idx3_8 t
  refine funext fun a => Fin.ext ?_
  match a with
  | ⟨0, _⟩ => show win3_8.index t (0 : Fin 2) * 256 + 1 * (y 0).val = (y 0).val; omega
  | ⟨1, _⟩ => show win3_8.index t (1 : Fin 2) * 1 + 1 * (y 1).val = (y 1).val; omega

/-- The head is a function of its eight operands. -/
theorem poolMlp_congr {M D1 D2 D3 D4 : Nat} {g g' : Mat M D1} {n n' : Mat M 1} {W1 W1' : Mat D1 D2} {b1 b1' : Mat 1 D2}
    {W2 W2' : Mat D2 D3} {b2 b2' : Mat 1 D3} {W3 W3' : Mat D3 D4} {b3 b3' : Mat 1 D4} (hg : g = g') (hn : n = n')
    (hW1 : W1 = W1') (hb1 : b1 = b1') (hW2 : W2 = W2') (hb2 : b2 = b2') (hW3 : W3 = W3') (hb3 : b3 = b3') :
    poolMlp g n W1 b1 W2 b2 W3 b3 = poolMlp g' n' W1' b1' W2' b2' W3' b3' := by
  subst hg hn hW1 hb1 hW2 hb2 hW3 hb3
  rfl

/-- The head of the blocks is the head of the arrays. -/
theorem blocks3 (c : Dev nD) (t : Fin cfg3.N) :
    poolMlp (iblk3 V c 0 t : Mat 256 128) (iblk3 V c 1 t : Mat 256 1) (iblk3 V c 2 t : Mat 128 128) (iblk3 V c 3 t : Mat 1 128) (iblk3 V c 4 t : Mat 128 64) (iblk3 V c 5 t : Mat 1 64) (iblk3 V c 6 t : Mat 64 1) (iblk3 V c 7 t : Mat 1 1)
      = poolMlp (V c main_v41 : Mat 256 128) (V c main_v46 : Mat 256 1) (V c main_arg11 : Mat 128 128) (V c main_v47 : Mat 1 128) (V c main_arg13 : Mat 128 64) (V c main_v48 : Mat 1 64) (V c main_arg15 : Mat 64 1) (V c main_v49 : Mat 1 1) :=
  poolMlp_congr (blk3_0 V c t) (blk3_1 V c t) (blk3_2 V c t) (blk3_3 V c t) (blk3_4 V c t) (blk3_5 V c t) (blk3_6 V c t) (blk3_7 V c t)

/-! ## The array after the call -/

/-- What the one point writes back is the (whole) block of the head of the arrays as the call finds them. -/
theorem flushed3 (c : Dev nD) (t : Fin cfg3.N) :
    (dat3 V c).flushed 8 t = ((cfg3.win 8).blk t).view.read (Elt Ideal)
      (poolMlp (V c main_v41 : Mat 256 128) (V c main_v46 : Mat 256 1) (V c main_arg11 : Mat 128 128) (V c main_v47 : Mat 1 128) (V c main_arg13 : Mat 128 64) (V c main_v48 : Mat 1 64) (V c main_arg15 : Mat 64 1) (V c main_v49 : Mat 1 1)) := by
  show (cfg3.win 8).cut (grid3.coords t) ((dat3 V c).after 8 t) = _
  rw [after3_8]
  unfold out3_8
  rw [View.canon_unit_zero origin2]
  simp only [View.ld_unit_zero (S := S256x128) origin2, View.ld_unit_zero (S := S256x1) origin2, View.ld_unit_zero (S := S128x128) origin2, View.ld_unit_zero (S := S1x128) origin2, View.ld_unit_zero (S := S128x64) origin2, View.ld_unit_zero (S := S1x64) origin2, View.ld_unit_zero (S := S64x1) origin2, View.ld_unit_zero (S := S1x1) origin2]
  rw [pay3_eq]
  funext y
  show poolMlp (iblk3 V c 0 t : Mat 256 128) (iblk3 V c 1 t : Mat 256 1) (iblk3 V c 2 t : Mat 128 128) (iblk3 V c 3 t : Mat 1 128) (iblk3 V c 4 t : Mat 128 64) (iblk3 V c 5 t : Mat 1 64) (iblk3 V c 6 t : Mat 64 1) (iblk3 V c 7 t : Mat 1 1) y
    = poolMlp (V c main_v41 : Mat 256 128) (V c main_v46 : Mat 256 1) (V c main_arg11 : Mat 128 128) (V c main_v47 : Mat 1 128) (V c main_arg13 : Mat 128 64) (V c main_v48 : Mat 1 64) (V c main_arg15 : Mat 64 1) (V c main_v49 : Mat 1 1) (((cfg3.win 8).blk t).view.emb y)
  rw [emb3 t y]
  exact congrFun (blocks3 V c t) y

/-- An index of the output is in the point's block iff each coordinate is in the block's range on its axis. -/
theorem mem_blk3 (t : Fin cfg3.N) (i : S256x1.Idx) :
    i ∈ ((cfg3.win 8).blk t).view.set ↔ ∀ a : Fin 2, win3_8.index t a * S256x1.size a ≤ (i a).val ∧ (i a).val < win3_8.index t a * S256x1.size a + S256x1.size a := by
  show i ∈ ((View.whole main_v50).slice (win3_8.rect t)).set ↔ _
  rw [View.set_slice_whole, Rect.mem_set_unit]
  exact Iff.rfl

/-- The one block is the whole output. -/
theorem cover3 (i : S256x1.Idx) : ∃ t : Fin cfg3.N, (cfg3.win 8).flush t = true ∧ i ∈ ((cfg3.win 8).blk t).view.set := by
  have hi0 : (i 0).val < 256 := (i 0).isLt
  have hi1 : (i 1).val < 1 := (i 1).isLt
  obtain ⟨h0, h1⟩ := idx3_8 t3_0
  refine ⟨t3_0, flush3_8 _, ?_⟩
  rw [mem_blk3]
  intro a
  match a with
  | ⟨0, _⟩ =>
    show win3_8.index t3_0 (0 : Fin 2) * 256 ≤ (i 0).val ∧ (i 0).val < win3_8.index t3_0 (0 : Fin 2) * 256 + 256
    omega
  | ⟨1, _⟩ =>
    show win3_8.index t3_0 (1 : Fin 2) * 1 ≤ (i 1).val ∧ (i 1).val < win3_8.index t3_0 (1 : Fin 2) * 1 + 1
    omega

/-- The output array after the call: the head of the arrays as the call finds them. -/
theorem final3 (c : Dev nD) :
    (dat3 V c).arrAt 8 cfg3.N
      = poolMlp (V c main_v41 : Mat 256 128) (V c main_v46 : Mat 256 1) (V c main_arg11 : Mat 128 128) (V c main_v47 : Mat 1 128) (V c main_arg13 : Mat 128 64) (V c main_v48 : Mat 1 64) (V c main_arg15 : Mat 64 1) (V c main_v49 : Mat 1 1) :=
  (dat3 V c).arrAt_eq_of_cover 8 _ (fun t _ => flushed3 V c t) cover3

end Cert.KernelIdeal.Hand

end
-- ==== Proof.KChainB.lean ====
/-
  The idealized kernel's buffers at its last five segment boundaries, and its result, as pure terms of the launch memory.

  Each graph layer's call leaves its output at the specification's layer of the arrays it finds (Region12): the
  neighbour sums gathered and scattered by the stretch before it, the previous layer's output, the reciprocal-degree
  column computed once before the projection, and its weights; the stretch before the pooling head sums the node rows
  of each graph and counts each graph's nodes; the head's call leaves the result at the specification's head
  (Region3). Buffers a stretch does not write and a call does not own keep their contents, so each operand is read
  back, boundary by boundary, to a term of the arguments.
-/
import proofs.«131596_j2508260901292_2_alg».proof.Proof.KChainA
import proofs.«131596_j2508260901292_2_alg».proof.Proof.Region12
import proofs.«131596_j2508260901292_2_alg».proof.Proof.Region3

set_option maxRecDepth 16384

noncomputable section

namespace Cert.KernelIdeal.Hand

open Cert.KernelIdeal Cert.KernelIdeal.Gen Cert.KernelIdeal.GenP Cert.GraphSage
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The remaining glue and the network as one term -/

/-- The sum of the node rows of each graph. -/
def gsumOf (batch : (⟨S50000, .i32⟩ : BufTy).Contents (Elt Ideal)) (h : (⟨S50000x128, .f32⟩ : BufTy).Contents (Elt Ideal)) : (⟨S256x128, .f32⟩ : BufTy).Contents (Elt Ideal) :=
  Host.scatterAdd (F := Ideal) scatter_S256x128_S50000x1_S50000x128_1_0_0_1 (broadcastInDim S256x128 ![] bcast_S_S256x128 (constant S_ .f32 0x00000000#32)) (broadcastInDim S50000x1 ![0] bcast_S50000_S50000x1_0 batch) h
/-- The number of nodes of each graph, as a column. -/
def gcntOf (batch : (⟨S50000, .i32⟩ : BufTy).Contents (Elt Ideal)) : (⟨S256x1, .f32⟩ : BufTy).Contents (Elt Ideal) :=
  broadcastInDim S256x1 ![0] bcast_S256_S256x1_0 (Host.scatterAdd (F := Ideal) scatter_S256_S50000x1_S50000_n_0_0_1 (broadcastInDim S256 ![] bcast_S_S256 (constant S_ .f32 0x00000000#32)) (broadcastInDim S50000x1 ![0] bcast_S50000_S50000x1_0 batch) (broadcastInDim S50000 ![] bcast_S_S50000 (constant S_ .f32 0x3F800000#32)))

/-- Bias vectors of 64 entries and of one entry laid out as one row. -/
def biasRow64 (b : (⟨S64, .f32⟩ : BufTy).Contents (Elt Ideal)) : (⟨S1x64, .f32⟩ : BufTy).Contents (Elt Ideal) := shapeCast _ b shapeCasts_S64_S1x64
def biasRow1 (b : (⟨S1, .f32⟩ : BufTy).Contents (Elt Ideal)) : (⟨S1x1, .f32⟩ : BufTy).Contents (Elt Ideal) := shapeCast _ b shapeCasts_S1_S1x1

section Net
variable (a0 : (⟨S50000x5, .f32⟩ : BufTy).Contents (Elt Ideal)) (a1 : (⟨S2x600000, .i32⟩ : BufTy).Contents (Elt Ideal))
  (a2 : (⟨S50000, .i32⟩ : BufTy).Contents (Elt Ideal)) (a3 : (⟨S5x128, .f32⟩ : BufTy).Contents (Elt Ideal)) (a4 : (⟨S128, .f32⟩ : BufTy).Contents (Elt Ideal))
  (a5 : (⟨S128x128, .f32⟩ : BufTy).Contents (Elt Ideal)) (a6 : (⟨S128, .f32⟩ : BufTy).Contents (Elt Ideal)) (a7 : (⟨S128x128, .f32⟩ : BufTy).Contents (Elt Ideal))
  (a8 : (⟨S128x128, .f32⟩ : BufTy).Contents (Elt Ideal)) (a9 : (⟨S128, .f32⟩ : BufTy).Contents (Elt Ideal)) (a10 : (⟨S128x128, .f32⟩ : BufTy).Contents (Elt Ideal))
  (a11 : (⟨S128x128, .f32⟩ : BufTy).Contents (Elt Ideal)) (a12 : (⟨S128, .f32⟩ : BufTy).Contents (Elt Ideal)) (a13 : (⟨S128x64, .f32⟩ : BufTy).Contents (Elt Ideal))
  (a14 : (⟨S64, .f32⟩ : BufTy).Contents (Elt Ideal)) (a15 : (⟨S64x1, .f32⟩ : BufTy).Contents (Elt Ideal)) (a16 : (⟨S1, .f32⟩ : BufTy).Contents (Elt Ideal))

/-- The projection, the first and the second graph layer, and the whole network, of the argument arrays. -/
def layer0 : Mat 50000 128 := relu (dense a0 a3 (biasRow a4))
def layer1 : Mat 50000 128 := sage (aggOf a1 (layer0 a0 a3 a4)) (layer0 a0 a3 a4) (degInv a1) a5 (biasRow a6) a7
def layer2 : Mat 50000 128 := sage (aggOf a1 (layer1 a0 a1 a3 a4 a5 a6 a7)) (layer1 a0 a1 a3 a4 a5 a6 a7) (degInv a1) a8 (biasRow a9) a10
def kerNet : Mat 256 1 :=
  poolMlp (gsumOf a2 (layer2 a0 a1 a3 a4 a5 a6 a7 a8 a9 a10)) (gcntOf a2) a11 (biasRow a12) a13 (biasRow64 a14) a15 (biasRow1 a16)
end Net

/-! ## After the projection call -/

theorem W2_v14 (c : Dev nD) : W2 m ρ c (Proc.devRef .tc main_v14) = layer0 (m ((c : Thread nD τ).loc main_arg0)) (m ((c : Thread nD τ).loc main_arg3)) (m ((c : Thread nD τ).loc main_arg4)) := by
  have h := W2_arr m ρ c 3
  rw [final0 (V1 m ρ) c, V1_arg0, V1_arg3, V1_v13] at h
  exact h

theorem W2_v1 (c : Dev nD) : W2 m ρ c (Proc.devRef .tc main_v1) = srcOf (m ((c : Thread nD τ).loc main_arg1)) := (W2_of_ne m ρ c main_v1 (by decide)).trans (W1_v1 m ρ c)
theorem W2_v3 (c : Dev nD) : W2 m ρ c (Proc.devRef .tc main_v3) = dstOf (m ((c : Thread nD τ).loc main_arg1)) := (W2_of_ne m ρ c main_v3 (by decide)).trans (W1_v3 m ρ c)
theorem W2_v12 (c : Dev nD) : W2 m ρ c (Proc.devRef .tc main_v12) = degInv (m ((c : Thread nD τ).loc main_arg1)) := (W2_of_ne m ρ c main_v12 (by decide)).trans (W1_v12 m ρ c)

/-- An argument the first stretch does not write and the projection call does not own is as launched. -/
theorem W2_arg5 (c : Dev nD) : W2 m ρ c (Proc.devRef .tc main_arg5) = (m ((c : Thread nD τ).loc main_arg5)) :=
  (W2_of_ne m ρ c main_arg5 (by decide)).trans (by show StableHlo.after hostOps0 (W0 m ρ c) (Proc.devRef .tc main_arg5) = _; after_results)
theorem W2_arg6 (c : Dev nD) : W2 m ρ c (Proc.devRef .tc main_arg6) = (m ((c : Thread nD τ).loc main_arg6)) :=
  (W2_of_ne m ρ c main_arg6 (by decide)).trans (by show StableHlo.after hostOps0 (W0 m ρ c) (Proc.devRef .tc main_arg6) = _; after_results)
theorem W2_arg7 (c : Dev nD) : W2 m ρ c (Proc.devRef .tc main_arg7) = (m ((c : Thread nD τ).loc main_arg7)) :=
  (W2_of_ne m ρ c main_arg7 (by decide)).trans (by show StableHlo.after hostOps0 (W0 m ρ c) (Proc.devRef .tc main_arg7) = _; after_results)
theorem W2_arg8 (c : Dev nD) : W2 m ρ c (Proc.devRef .tc main_arg8) = (m ((c : Thread nD τ).loc main_arg8)) :=
  (W2_of_ne m ρ c main_arg8 (by decide)).trans (by show StableHlo.after hostOps0 (W0 m ρ c) (Proc.devRef .tc main_arg8) = _; after_results)
theorem W2_arg9 (c : Dev nD) : W2 m ρ c (Proc.devRef .tc main_arg9) = (m ((c : Thread nD τ).loc main_arg9)) :=
  (W2_of_ne m ρ c main_arg9 (by decide)).trans (by show StableHlo.after hostOps0 (W0 m ρ c) (Proc.devRef .tc main_arg9) = _; after_results)
theorem W2_arg10 (c : Dev nD) : W2 m ρ c (Proc.devRef .tc main_arg10) = (m ((c : Thread nD τ).loc main_arg10)) :=
  (W2_of_ne m ρ c main_arg10 (by decide)).trans (by show StableHlo.after hostOps0 (W0 m ρ c) (Proc.devRef .tc main_arg10) = _; after_results)

/-! ## At the first graph layer's entry -/

set_option maxHeartbeats 3200000 in
theorem V3_v24 (c : Dev nD) : V3 m ρ c main_v24 = aggOf (m ((c : Thread nD τ).loc main_arg1)) (layer0 (m ((c : Thread nD τ).loc main_arg0)) (m ((c : Thread nD τ).loc main_arg3)) (m ((c : Thread nD τ).loc main_arg4))) := by
  show StableHlo.after hostOps1 (W2 m ρ c) (Proc.devRef .tc main_v24) = _
  after_results
  rw [W2_v14, W2_v1, W2_v3]
  rfl
theorem V3_v14 (c : Dev nD) : V3 m ρ c main_v14 = layer0 (m ((c : Thread nD τ).loc main_arg0)) (m ((c : Thread nD τ).loc main_arg3)) (m ((c : Thread nD τ).loc main_arg4)) := by
  show StableHlo.after hostOps1 (W2 m ρ c) (Proc.devRef .tc main_v14) = _
  after_results
  exact W2_v14 m ρ c
theorem V3_v12 (c : Dev nD) : V3 m ρ c main_v12 = degInv (m ((c : Thread nD τ).loc main_arg1)) := by
  show StableHlo.after hostOps1 (W2 m ρ c) (Proc.devRef .tc main_v12) = _
  after_results
  exact W2_v12 m ρ c
theorem V3_arg5 (c : Dev nD) : V3 m ρ c main_arg5 = (m ((c : Thread nD τ).loc main_arg5)) := by
  show StableHlo.after hostOps1 (W2 m ρ c) (Proc.devRef .tc main_arg5) = _
  after_results
  exact W2_arg5 m ρ c
theorem V3_v25 (c : Dev nD) : V3 m ρ c main_v25 = biasRow (m ((c : Thread nD τ).loc main_arg6)) := by
  show StableHlo.after hostOps1 (W2 m ρ c) (Proc.devRef .tc main_v25) = _
  after_results
  rw [W2_arg6]
  rfl
theorem V3_arg7 (c : Dev nD) : V3 m ρ c main_arg7 = (m ((c : Thread nD τ).loc main_arg7)) := by
  show StableHlo.after hostOps1 (W2 m ρ c) (Proc.devRef .tc main_arg7) = _
  after_results
  exact W2_arg7 m ρ c

/-! ## After the first graph layer's call -/

theorem W4_v26 (c : Dev nD) : W4 m ρ c (Proc.devRef .tc main_v26) = layer1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  have h := W4_arr m ρ c 6
  rw [final1 (V3 m ρ) c, V3_v24, V3_v14, V3_v12, V3_arg5, V3_v25, V3_arg7] at h
  exact h

/-- A buffer the second stretch does not write and the first layer's call does not own keeps what it held after the projection call. -/
theorem W4_v1_keep (c : Dev nD) : W4 m ρ c (Proc.devRef .tc main_v1) = W2 m ρ c (Proc.devRef .tc main_v1) :=
  (W4_of_ne m ρ c main_v1 (by decide)).trans (by show StableHlo.after hostOps1 (W2 m ρ c) (Proc.devRef .tc main_v1) = _; after_results)
theorem W4_v3_keep (c : Dev nD) : W4 m ρ c (Proc.devRef .tc main_v3) = W2 m ρ c (Proc.devRef .tc main_v3) :=
  (W4_of_ne m ρ c main_v3 (by decide)).trans (by show StableHlo.after hostOps1 (W2 m ρ c) (Proc.devRef .tc main_v3) = _; after_results)
theorem W4_arg8_keep (c : Dev nD) : W4 m ρ c (Proc.devRef .tc main_arg8) = W2 m ρ c (Proc.devRef .tc main_arg8) :=
  (W4_of_ne m ρ c main_arg8 (by decide)).trans (by show StableHlo.after hostOps1 (W2 m ρ c) (Proc.devRef .tc main_arg8) = _; after_results)
theorem W4_arg9_keep (c : Dev nD) : W4 m ρ c (Proc.devRef .tc main_arg9) = W2 m ρ c (Proc.devRef .tc main_arg9) :=
  (W4_of_ne m ρ c main_arg9 (by decide)).trans (by show StableHlo.after hostOps1 (W2 m ρ c) (Proc.devRef .tc main_arg9) = _; after_results)
theorem W4_arg10_keep (c : Dev nD) : W4 m ρ c (Proc.devRef .tc main_arg10) = W2 m ρ c (Proc.devRef .tc main_arg10) :=
  (W4_of_ne m ρ c main_arg10 (by decide)).trans (by show StableHlo.after hostOps1 (W2 m ρ c) (Proc.devRef .tc main_arg10) = _; after_results)

/-- The reciprocal-degree column is an input of the first layer's call: the call leaves it as it found it. -/
theorem W4_v12 (c : Dev nD) : W4 m ρ c (Proc.devRef .tc main_v12) = degInv (m ((c : Thread nD τ).loc main_arg1)) :=
  ((W4_arr m ρ c 2).trans (((dat1 (V3 m ρ) c).arrAt_in 2 rfl _).trans (A_eq1 (V3 m ρ) c 2))).trans (V3_v12 m ρ c)

/-! ## At the second graph layer's entry -/

set_option maxHeartbeats 3200000 in
theorem V5_v36 (c : Dev nD) : V5 m ρ c main_v36 = aggOf (m ((c : Thread nD τ).loc main_arg1)) (layer1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  show StableHlo.after hostOps2 (W4 m ρ c) (Proc.devRef .tc main_v36) = _
  after_results
  rw [W4_v26, W4_v1_keep, W4_v3_keep, W2_v1, W2_v3]
  rfl
theorem V5_v26 (c : Dev nD) : V5 m ρ c main_v26 = layer1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v26) = _
  after_results
  exact W4_v26 m ρ c
theorem V5_v12 (c : Dev nD) : V5 m ρ c main_v12 = degInv (m ((c : Thread nD τ).loc main_arg1)) := by
  show StableHlo.after hostOps2 (W4 m ρ c) (Proc.devRef .tc main_v12) = _
  after_results
  exact W4_v12 m ρ c
theorem V5_arg8 (c : Dev nD) : V5 m ρ c main_arg8 = (m ((c : Thread nD τ).loc main_arg8)) := by
  show StableHlo.after hostOps2 (W4 m ρ c) (Proc.devRef .tc main_arg8) = _
  after_results
  exact (W4_arg8_keep m ρ c).trans (W2_arg8 m ρ c)
theorem V5_v37 (c : Dev nD) : V5 m ρ c main_v37 = biasRow (m ((c : Thread nD τ).loc main_arg9)) := by
  show StableHlo.after hostOps2 (W4 m ρ c) (Proc.devRef .tc main_v37) = _
  after_results
  rw [W4_arg9_keep, W2_arg9]
  rfl
theorem V5_arg10 (c : Dev nD) : V5 m ρ c main_arg10 = (m ((c : Thread nD τ).loc main_arg10)) := by
  show StableHlo.after hostOps2 (W4 m ρ c) (Proc.devRef .tc main_arg10) = _
  after_results
  exact (W4_arg10_keep m ρ c).trans (W2_arg10 m ρ c)

/-! ## After the second graph layer's call -/

theorem W6_v38 (c : Dev nD) : W6 m ρ c (Proc.devRef .tc main_v38) = layer2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have h := W6_arr m ρ c 6
  rw [final2 (V5 m ρ) c, V5_v36, V5_v26, V5_v12, V5_arg8, V5_v37, V5_arg10] at h
  exact h

/-- An argument only the pooling head reads: from its contents after the last call, which are the launch contents,
    back through the head's call (which does not own it) and the last stretch (which does not write it). -/
theorem W6_arg2 (c : Dev nD) : W6 m ρ c (Proc.devRef .tc main_arg2) = (m ((c : Thread nD τ).loc main_arg2)) := by
  have h7 : W7 m ρ c (Proc.devRef .tc main_arg2) = W6 m ρ c (Proc.devRef .tc main_arg2) := by
    show StableHlo.after hostOps3 (W6 m ρ c) (Proc.devRef .tc main_arg2) = _
    after_results
  exact h7.symm.trans ((W8_of_ne m ρ c main_arg2 (by decide)).symm.trans (W8_main_arg2 m ρ c))
theorem W6_arg12 (c : Dev nD) : W6 m ρ c (Proc.devRef .tc main_arg12) = (m ((c : Thread nD τ).loc main_arg12)) := by
  have h7 : W7 m ρ c (Proc.devRef .tc main_arg12) = W6 m ρ c (Proc.devRef .tc main_arg12) := by
    show StableHlo.after hostOps3 (W6 m ρ c) (Proc.devRef .tc main_arg12) = _
    after_results
  exact h7.symm.trans ((W8_of_ne m ρ c main_arg12 (by decide)).symm.trans (W8_main_arg12 m ρ c))
theorem W6_arg14 (c : Dev nD) : W6 m ρ c (Proc.devRef .tc main_arg14) = (m ((c : Thread nD τ).loc main_arg14)) := by
  have h7 : W7 m ρ c (Proc.devRef .tc main_arg14) = W6 m ρ c (Proc.devRef .tc main_arg14) := by
    show StableHlo.after hostOps3 (W6 m ρ c) (Proc.devRef .tc main_arg14) = _
    after_results
  exact h7.symm.trans ((W8_of_ne m ρ c main_arg14 (by decide)).symm.trans (W8_main_arg14 m ρ c))
theorem W6_arg16 (c : Dev nD) : W6 m ρ c (Proc.devRef .tc main_arg16) = (m ((c : Thread nD τ).loc main_arg16)) := by
  have h7 : W7 m ρ c (Proc.devRef .tc main_arg16) = W6 m ρ c (Proc.devRef .tc main_arg16) := by
    show StableHlo.after hostOps3 (W6 m ρ c) (Proc.devRef .tc main_arg16) = _
    after_results
  exact h7.symm.trans ((W8_of_ne m ρ c main_arg16 (by decide)).symm.trans (W8_main_arg16 m ρ c))

/-! ## At the pooling head's entry -/

theorem V7_v41 (c : Dev nD) : V7 m ρ c main_v41 = gsumOf (m ((c : Thread nD τ).loc main_arg2)) (layer2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show StableHlo.after hostOps3 (W6 m ρ c) (Proc.devRef .tc main_v41) = _
  after_results
  rw [W6_v38, W6_arg2]
  rfl
theorem V7_v46 (c : Dev nD) : V7 m ρ c main_v46 = gcntOf (m ((c : Thread nD τ).loc main_arg2)) := by
  show StableHlo.after hostOps3 (W6 m ρ c) (Proc.devRef .tc main_v46) = _
  after_results
  rw [W6_arg2]
  rfl
theorem V7_v47 (c : Dev nD) : V7 m ρ c main_v47 = biasRow (m ((c : Thread nD τ).loc main_arg12)) := by
  show StableHlo.after hostOps3 (W6 m ρ c) (Proc.devRef .tc main_v47) = _
  after_results
  rw [W6_arg12]
  rfl
theorem V7_v48 (c : Dev nD) : V7 m ρ c main_v48 = biasRow64 (m ((c : Thread nD τ).loc main_arg14)) := by
  show StableHlo.after hostOps3 (W6 m ρ c) (Proc.devRef .tc main_v48) = _
  after_results
  rw [W6_arg14]
  rfl
theorem V7_v49 (c : Dev nD) : V7 m ρ c main_v49 = biasRow1 (m ((c : Thread nD τ).loc main_arg16)) := by
  show StableHlo.after hostOps3 (W6 m ρ c) (Proc.devRef .tc main_v49) = _
  after_results
  rw [W6_arg16]
  rfl

/-- A weight matrix of the head is an input of the head's call: the call leaves it as it found it, and it ends as launched. -/
theorem V7_arg11 (c : Dev nD) : V7 m ρ c main_arg11 = (m ((c : Thread nD τ).loc main_arg11)) :=
  (((W8_arr m ρ c 2).trans (((dat3 (V7 m ρ) c).arrAt_in 2 rfl _).trans (A_eq3 (V7 m ρ) c 2))).symm).trans (W8_main_arg11 m ρ c)
theorem V7_arg13 (c : Dev nD) : V7 m ρ c main_arg13 = (m ((c : Thread nD τ).loc main_arg13)) :=
  (((W8_arr m ρ c 4).trans (((dat3 (V7 m ρ) c).arrAt_in 4 rfl _).trans (A_eq3 (V7 m ρ) c 4))).symm).trans (W8_main_arg13 m ρ c)
theorem V7_arg15 (c : Dev nD) : V7 m ρ c main_arg15 = (m ((c : Thread nD τ).loc main_arg15)) :=
  (((W8_arr m ρ c 6).trans (((dat3 (V7 m ρ) c).arrAt_in 6 rfl _).trans (A_eq3 (V7 m ρ) c 6))).symm).trans (W8_main_arg15 m ρ c)

/-! ## The result -/

/-- The result buffer after the last call is the network of the arguments. -/
theorem kernel_value (c : Dev nD) :
    W8 m ρ c (Proc.devRef .tc main_v50) = kerNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  have h := W8_arr m ρ c 8
  rw [final3 (V7 m ρ) c, V7_v41, V7_v46, V7_arg11, V7_v47, V7_arg13, V7_v48, V7_arg15, V7_v49] at h
  exact h

end Cert.KernelIdeal.Hand

end
-- ==== Proof.RefDense.lean ====
/-
  The reference program's dense stretches as the whole-array functions of the specification, over the extended reals.

  Three stretches of host operations are read entry by entry and matched against the specification:
  * the input projection: a matrix product, a bias row spread over the rows, and a maximum with zero — `relu (dense x W b)`;
  * one graph layer: the neighbour sums scaled by the reciprocal in-degree column, two matrix products and a bias,
    then each row divided by the larger of its Euclidean norm and the floor, and a maximum with zero — `sage`;
  * the pooling head: per-graph sums divided by the larger of the node count and one, then three dense layers — `poolMlp`.

  Every step is first proved over abstract extents and then instantiated at the program's literal shapes, where the
  printed dimension numbers of each matrix product are those of a plain rows-by-columns product.
-/
import proofs.«131596_j2508260901292_2_alg».proof.Proof.Gen.ReferenceIdeal.Run
import proofs.«131596_j2508260901292_2_alg».proof.Proof.Spec
import proofs.«131596_j2508260901292_2_alg».proof.Proof.LibRowOps
import Idealize.ShloMosaic.Lib.Pipeline.Value
import Idealize.ShloMosaic.Lib.ValueIdx
import Idealize.ShloMosaic.PureOps.Ideal.Laws

noncomputable section

open scoped BigOperators

namespace Cert.ReferenceIdeal.Hand

open Cert.ReferenceIdeal Cert.ReferenceIdeal.Gen Cert.GraphSage Idealize.ShloMosaic Idealize.ShloMosaic.ValueIdx

/-! ## A bias vector as a one-row array -/

/-- A vector of length `N` as the single row of a `1 × N` array. -/
def rowOf {N : Nat} (b : (⟨1, ![N]⟩ : Shape).Idx → EReal) : Mat 1 N := fun i => b (ix1 (i 1))

theorem rowOf_apply {N : Nat} (b : (⟨1, ![N]⟩ : Shape).Idx → EReal) (q : Fin N) :
    rowOf b (ix2 (0 : Fin 1) q) = b (ix1 q) := rfl

/-- Spreading a vector into one row is `rowOf`. -/
theorem bcastRow_eq_rowOf {N : Nat} (b : (⟨1, ![N]⟩ : Shape).Idx → EReal)
    (h : (⟨1, ![N]⟩ : Shape).BroadcastsInDim ⟨2, ![1, N]⟩ ![1]) :
    broadcastInDim ⟨2, ![1, N]⟩ ![1] h b = rowOf b := by
  funext i
  exact broadcastInDim_apply ![1] h b i (ix1 (i 1)) (fun a => by
    match a with
    | ⟨0, _⟩ =>
      show (i 1).val = if N = 1 then 0 else (i 1).val
      split
      · have : (i 1).val < N := (i 1).isLt
        omega
      · rfl)

theorem bcastRow128_eq_rowOf (b : FVec Ideal S128 .f32) : broadcastInDim S1x128 ![1] bcast_S128_S1x128_1 b = rowOf b :=
  bcastRow_eq_rowOf b _
theorem bcastRow64_eq_rowOf (b : FVec Ideal S64 .f32) : broadcastInDim S1x64 ![1] bcast_S64_S1x64_1 b = rowOf b :=
  bcastRow_eq_rowOf b _
theorem bcastRow1_eq_rowOf (b : FVec Ideal S1 .f32) : broadcastInDim S1x1 ![1] bcast_S1_S1x1_1 b = rowOf b :=
  bcastRow_eq_rowOf b _

/-! ## Layout steps read at an index, over abstract extents -/

section Layout

variable {α : Type} {M K N : Nat}

/-- A column spread over `K` columns reads the column's entry of the same row. -/
theorem bcastCol_apply (d : (⟨2, ![M, 1]⟩ : Shape).Idx → α)
    (h : (⟨2, ![M, 1]⟩ : Shape).BroadcastsInDim ⟨2, ![M, K]⟩ ![0, 1]) (p : Fin M) (k : Fin K) :
    broadcastInDim ⟨2, ![M, K]⟩ ![0, 1] h d (ix2 p k) = d (ix2 p (0 : Fin 1)) :=
  broadcastInDim_apply ![0, 1] h d (ix2 p k) (ix2 p (0 : Fin 1)) (fun a => by
    match a with
    | ⟨0, _⟩ =>
      show p.val = if M = 1 then 0 else p.val
      split
      · have := p.isLt
        omega
      · rfl
    | ⟨1, _⟩ => simp)

/-- A vector of length `M` as a column reads the vector's entry of the row. -/
theorem bcastKeep_apply (v : (⟨1, ![M]⟩ : Shape).Idx → α)
    (h : (⟨1, ![M]⟩ : Shape).BroadcastsInDim ⟨2, ![M, 1]⟩ ![0]) (p : Fin M) :
    broadcastInDim ⟨2, ![M, 1]⟩ ![0] h v (ix2 p (0 : Fin 1)) = v (ix1 p) :=
  broadcastInDim_apply ![0] h v (ix2 p (0 : Fin 1)) (ix1 p) (fun a => by
    match a with
    | ⟨0, _⟩ =>
      show p.val = if M = 1 then 0 else p.val
      split
      · have := p.isLt
        omega
      · rfl)

end Layout

/-! ## The host's arithmetic steps read at an index, over abstract extents -/

section Steps

variable {M K N : Nat}

theorem hostSqrt_apply {s : Shape} {φ : FTy} (x : FVec Ideal s φ) (i : s.Idx) : Host.sqrt x i = Ideal.sqrt (x i) := rfl

/-- A matrix product plus a bias row spread over the rows, at `(p, q)`. -/
theorem hostDense_apply (x : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (DotDims.plain M K N) none x W)
        (broadcastInDim ⟨2, ![M, N]⟩ ![0, 1] h2 (broadcastInDim ⟨2, ![1, N]⟩ ![1] h1 b)) (ix2 p q)
      = denseAt x W (rowOf b) p q := by
  rw [addf_apply, Cert.Lib.RowOps.bcastRow_bcast_apply]
  simp only [Host.dotGeneral]
  rw [Cert.Lib.RowOps.dotGeneral_apply]
  rfl

/-- The same as whole arrays. -/
theorem hostDense_eq (x : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (DotDims.plain M K N) none x W)
        (broadcastInDim ⟨2, ![M, N]⟩ ![0, 1] h2 (broadcastInDim ⟨2, ![1, N]⟩ ![1] h1 b))
      = dense x W (rowOf b) := by
  funext i
  obtain ⟨p, q, rfl⟩ : ∃ p q, i = ix2 p q := ⟨i 0, i 1, eq_ix2 i⟩
  rw [hostDense_apply, dense_apply]

/-- A dense layer followed by the maximum with the zero splat. -/
theorem hostDenseRelu_eq (x : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (Host.dotGeneral (DotDims.plain M K N) none x W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32))
      = relu (dense x W (rowOf b)) := by
  rw [hostDense_eq]
  funext i
  rw [maximumf_apply, Cert.Lib.RowOps.splat_apply, relu_apply]

/-- The sum of a row, from a zero initial value. -/
theorem hostRowSum_apply (x : FVec Ideal ⟨2, ![M, N]⟩ .f32)
    (h' : (⟨2, ![M, N]⟩ : Shape).ReducesTo [1] ⟨1, ![M]⟩) (hr : (⟨2, ![M, N]⟩ : Shape).Reduces [1] ⟨1, ![M]⟩)
    (hu : 0 < (⟨0, ![]⟩ : Shape).numel) (p : Fin M) :
    Host.reduceAdd x (constant (F := Ideal) ⟨0, ![]⟩ .f32 0x00000000#32) h' hu (ix1 p) = ∑ k : Fin N, x (ix2 p k) := by
  simp only [Host.reduceAdd, Ideal.hostReduceAdd_def]
  rw [Ideal.hostReduceAdd_single h' hr, constant_apply, Ideal.ofBits_zero_f32, zero_add]
  refine Finset.sum_congr rfl fun k _ => ?_
  exact congrArg x (funext fun a => Fin.ext (by match a with | ⟨0, _⟩ => rfl | ⟨1, _⟩ => rfl))

end Steps

/-! ## A graph layer and mean pooling, over abstract extents -/

section Layer

variable {M K N : Nat}

/-- The linear part of a graph layer at `(p, q)`: the scaled neighbour sums through `Wl` with the bias, plus the
    node's own features through `Wr`. -/
theorem hostSageLin_apply (agg h : FVec Ideal ⟨2, ![M, K]⟩ .f32) (deg : FVec Ideal ⟨2, ![M, 1]⟩ .f32)
    (Wl Wr : FVec Ideal ⟨2, ![K, N]⟩ .f32) (bl : FVec Ideal ⟨1, ![N]⟩ .f32)
    (hd : (⟨2, ![M, 1]⟩ : Shape).BroadcastsInDim ⟨2, ![M, K]⟩ ![0, 1])
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (addf (Host.dotGeneral (DotDims.plain M K N) none (mulf agg (broadcastInDim ⟨2, ![M, K]⟩ ![0, 1] hd deg)) Wl)
          (broadcastInDim ⟨2, ![M, N]⟩ ![0, 1] h2 (broadcastInDim ⟨2, ![1, N]⟩ ![1] h1 bl)))
        (Host.dotGeneral (DotDims.plain M K N) none h Wr) (ix2 p q)
      = sageLinAt agg h deg Wl (rowOf bl) Wr p q := by
  rw [addf_apply, hostDense_apply]
  simp only [Host.dotGeneral]
  rw [Cert.Lib.RowOps.dotGeneral_apply]
  have e : ∀ k : Fin K, mulf agg (broadcastInDim ⟨2, ![M, K]⟩ ![0, 1] hd deg) (ix2 p k) = agg (ix2 p k) * deg (ix2 p (0 : Fin 1)) :=
    fun k => by rw [mulf_apply, bcastCol_apply]
  unfold sageLinAt denseAt
  rw [Finset.sum_congr rfl fun k _ => congrArg (· * Wl (ix2 k q)) (e k)]

/-- Row normalisation followed by the maximum with the zero splat, at `(p, q)`: the entry divided by the larger of the
    row's Euclidean norm and the floor. -/
theorem hostNormRelu_apply (Z : FVec Ideal ⟨2, ![M, N]⟩ .f32)
    (h' : (⟨2, ![M, N]⟩ : Shape).ReducesTo [1] ⟨1, ![M]⟩) (hr : (⟨2, ![M, N]⟩ : Shape).Reduces [1] ⟨1, ![M]⟩)
    (hu : 0 < (⟨0, ![]⟩ : Shape).numel)
    (hk : (⟨1, ![M]⟩ : Shape).BroadcastsInDim ⟨2, ![M, 1]⟩ ![0])
    (hf : (⟨0, ![]⟩ : Shape).BroadcastsInDim ⟨2, ![M, 1]⟩ ![])
    (hn : (⟨2, ![M, 1]⟩ : Shape).BroadcastsInDim ⟨2, ![M, N]⟩ ![0, 1])
    (h0 : (⟨0, ![]⟩ : Shape).BroadcastsInDim ⟨2, ![M, N]⟩ ![]) (p : Fin M) (q : Fin N) :
    maximumf
        (Host.divf Z (broadcastInDim ⟨2, ![M, N]⟩ ![0, 1] hn
          (maximumf
            (Host.sqrt (broadcastInDim ⟨2, ![M, 1]⟩ ![0] hk
              (Host.reduceAdd (mulf Z Z) (constant (F := Ideal) ⟨0, ![]⟩ .f32 0x00000000#32) h' hu)))
            (broadcastInDim ⟨2, ![M, 1]⟩ ![] hf (constant (F := Ideal) ⟨0, ![]⟩ .f32 0x2B8CBCCC#32)))))
        (broadcastInDim ⟨2, ![M, N]⟩ ![] h0 (constant (F := Ideal) ⟨0, ![]⟩ .f32 0x00000000#32)) (ix2 p q)
      = max (normAt (fun j => Z (ix2 p j)) q) zeroW := by
  rw [maximumf_apply, Cert.Lib.RowOps.splat_apply, Cert.Lib.RowOps.hostDivf_apply, bcastCol_apply, maximumf_apply,
    Cert.Lib.RowOps.splat_apply, hostSqrt_apply, bcastKeep_apply, hostRowSum_apply _ h' hr]
  simp only [mulf_apply]
  rfl

/-- A whole graph layer. -/
theorem hostSage_eq (agg h : FVec Ideal ⟨2, ![M, K]⟩ .f32) (deg : FVec Ideal ⟨2, ![M, 1]⟩ .f32)
    (Wl Wr : FVec Ideal ⟨2, ![K, N]⟩ .f32) (bl : FVec Ideal ⟨1, ![N]⟩ .f32)
    (hd : (⟨2, ![M, 1]⟩ : Shape).BroadcastsInDim ⟨2, ![M, K]⟩ ![0, 1])
    (h1 : (⟨1, ![N]⟩ : Shape).BroadcastsInDim ⟨2, ![1, N]⟩ ![1])
    (h2 : (⟨2, ![1, N]⟩ : Shape).BroadcastsInDim ⟨2, ![M, N]⟩ ![0, 1])
    (h' : (⟨2, ![M, N]⟩ : Shape).ReducesTo [1] ⟨1, ![M]⟩) (hr : (⟨2, ![M, N]⟩ : Shape).Reduces [1] ⟨1, ![M]⟩)
    (hu : 0 < (⟨0, ![]⟩ : Shape).numel)
    (hk : (⟨1, ![M]⟩ : Shape).BroadcastsInDim ⟨2, ![M, 1]⟩ ![0])
    (hf : (⟨0, ![]⟩ : Shape).BroadcastsInDim ⟨2, ![M, 1]⟩ ![])
    (hn : (⟨2, ![M, 1]⟩ : Shape).BroadcastsInDim ⟨2, ![M, N]⟩ ![0, 1])
    (h0 : (⟨0, ![]⟩ : Shape).BroadcastsInDim ⟨2, ![M, N]⟩ ![]) :
    maximumf
        (Host.divf
          (addf (addf (Host.dotGeneral (DotDims.plain M K N) none (mulf agg (broadcastInDim ⟨2, ![M, K]⟩ ![0, 1] hd deg)) Wl)
              (broadcastInDim ⟨2, ![M, N]⟩ ![0, 1] h2 (broadcastInDim ⟨2, ![1, N]⟩ ![1] h1 bl)))
            (Host.dotGeneral (DotDims.plain M K N) none h Wr))
          (broadcastInDim ⟨2, ![M, N]⟩ ![0, 1] hn
            (maximumf
              (Host.sqrt (broadcastInDim ⟨2, ![M, 1]⟩ ![0] hk
                (Host.reduceAdd
                  (mulf
                    (addf (addf (Host.dotGeneral (DotDims.plain M K N) none (mulf agg (broadcastInDim ⟨2, ![M, K]⟩ ![0, 1] hd deg)) Wl)
                        (broadcastInDim ⟨2, ![M, N]⟩ ![0, 1] h2 (broadcastInDim ⟨2, ![1, N]⟩ ![1] h1 bl)))
                      (Host.dotGeneral (DotDims.plain M K N) none h Wr))
                    (addf (addf (Host.dotGeneral (DotDims.plain M K N) none (mulf agg (broadcastInDim ⟨2, ![M, K]⟩ ![0, 1] hd deg)) Wl)
                        (broadcastInDim ⟨2, ![M, N]⟩ ![0, 1] h2 (broadcastInDim ⟨2, ![1, N]⟩ ![1] h1 bl)))
                      (Host.dotGeneral (DotDims.plain M K N) none h Wr)))
                  (constant (F := Ideal) ⟨0, ![]⟩ .f32 0x00000000#32) h' hu)))
              (broadcastInDim ⟨2, ![M, 1]⟩ ![] hf (constant (F := Ideal) ⟨0, ![]⟩ .f32 0x2B8CBCCC#32)))))
        (broadcastInDim ⟨2, ![M, N]⟩ ![] h0 (constant (F := Ideal) ⟨0, ![]⟩ .f32 0x00000000#32))
      = sage agg h deg Wl (rowOf bl) Wr := by
  funext i
  obtain ⟨p, q, rfl⟩ : ∃ p q, i = ix2 p q := ⟨i 0, i 1, eq_ix2 i⟩
  rw [hostNormRelu_apply _ h' hr, sage_apply]
  unfold sageAt
  exact congrArg (fun z => max (normAt z q) zeroW) (funext fun j => hostSageLin_apply agg h deg Wl Wr bl hd h1 h2 p j)

/-- Mean pooling: the node count is floored at one as a vector, made a column, spread over the columns, and divides
    the sums. -/
theorem hostMeanPool_eq (gsum : FVec Ideal ⟨2, ![M, K]⟩ .f32) (cnt : FVec Ideal ⟨1, ![M]⟩ .f32)
    (hs : (⟨0, ![]⟩ : Shape).BroadcastsInDim ⟨1, ![M]⟩ ![])
    (hk : (⟨1, ![M]⟩ : Shape).BroadcastsInDim ⟨2, ![M, 1]⟩ ![0])
    (hn : (⟨2, ![M, 1]⟩ : Shape).BroadcastsInDim ⟨2, ![M, K]⟩ ![0, 1]) :
    Host.divf gsum
        (broadcastInDim ⟨2, ![M, K]⟩ ![0, 1] hn
          (broadcastInDim ⟨2, ![M, 1]⟩ ![0] hk
            (maximumf cnt (broadcastInDim ⟨1, ![M]⟩ ![] hs (constant (F := Ideal) ⟨0, ![]⟩ .f32 0x3F800000#32)))))
      = meanPool gsum (broadcastInDim ⟨2, ![M, 1]⟩ ![0] hk cnt) := by
  funext i
  obtain ⟨p, k, rfl⟩ : ∃ p k, i = ix2 p k := ⟨i 0, i 1, eq_ix2 i⟩
  rw [Cert.Lib.RowOps.hostDivf_apply, bcastCol_apply, bcastKeep_apply, maximumf_apply, Cert.Lib.RowOps.splat_apply,
    meanPool_apply, bcastKeep_apply]

end Layer

/-! ## The program's literal shapes -/

/-- The printed dimension numbers of each matrix product are those of a plain rows-by-columns product. -/
theorem dot_proj_eq : dot_S50000x5_S5x128_S50000x128_1_0_0_1_n_n = DotDims.plain 50000 5 128 := rfl
theorem dot_layer_eq : dot_S50000x128_S128x128_S50000x128_1_0_0_1_n_n = DotDims.plain 50000 128 128 := rfl
theorem dot_head1_eq : dot_S256x128_S128x128_S256x128_1_0_0_1_n_n = DotDims.plain 256 128 128 := rfl
theorem dot_head2_eq : dot_S256x128_S128x64_S256x64_1_0_0_1_n_n = DotDims.plain 256 128 64 := rfl
theorem dot_head3_eq : dot_S256x64_S64x1_S256x1_1_0_0_1_n_n = DotDims.plain 256 64 1 := rfl

/-- The input projection: `relu (x · W + b)`. -/
theorem proj_eq (x : FVec Ideal S50000x5 .f32) (W : FVec Ideal S5x128 .f32) (b : FVec Ideal S128 .f32) :
    maximumf
        (addf (Host.dotGeneral dot_S50000x5_S5x128_S50000x128_1_0_0_1_n_n none x W)
          (broadcastInDim S50000x128 ![0, 1] bcast_S1x128_S50000x128_0_1 (broadcastInDim S1x128 ![1] bcast_S128_S1x128_1 b)))
        (broadcastInDim S50000x128 ![] bcast_S_S50000x128 (constant (F := Ideal) S_ .f32 0x00000000#32))
      = relu (dense x W (rowOf b)) := by
  rw [dot_proj_eq]
  exact hostDenseRelu_eq x W b _ _ _

/-- One graph layer: the linear part, each row divided by the larger of its norm and the floor, then relu. -/
theorem sageLayer_eq (agg h : FVec Ideal S50000x128 .f32) (deg : FVec Ideal S50000x1 .f32)
    (Wl Wr : FVec Ideal S128x128 .f32) (bl : FVec Ideal S128 .f32) :
    maximumf
        (Host.divf
          (addf (addf (Host.dotGeneral dot_S50000x128_S128x128_S50000x128_1_0_0_1_n_n none (mulf agg (broadcastInDim S50000x128 ![0, 1] bcast_S50000x1_S50000x128_0_1 deg)) Wl) (broadcastInDim S50000x128 ![0, 1] bcast_S1x128_S50000x128_0_1 (broadcastInDim S1x128 ![1] bcast_S128_S1x128_1 bl))) (Host.dotGeneral dot_S50000x128_S128x128_S50000x128_1_0_0_1_n_n none h Wr))
          (broadcastInDim S50000x128 ![0, 1] bcast_S50000x1_S50000x128_0_1
            (maximumf
              (Host.sqrt (broadcastInDim S50000x1 ![0] bcast_S50000_S50000x1_0
                (Host.reduceAdd
                  (mulf
                    (addf (addf (Host.dotGeneral dot_S50000x128_S128x128_S50000x128_1_0_0_1_n_n none (mulf agg (broadcastInDim S50000x128 ![0, 1] bcast_S50000x1_S50000x128_0_1 deg)) Wl) (broadcastInDim S50000x128 ![0, 1] bcast_S1x128_S50000x128_0_1 (broadcastInDim S1x128 ![1] bcast_S128_S1x128_1 bl))) (Host.dotGeneral dot_S50000x128_S128x128_S50000x128_1_0_0_1_n_n none h Wr))
                    (addf (addf (Host.dotGeneral dot_S50000x128_S128x128_S50000x128_1_0_0_1_n_n none (mulf agg (broadcastInDim S50000x128 ![0, 1] bcast_S50000x1_S50000x128_0_1 deg)) Wl) (broadcastInDim S50000x128 ![0, 1] bcast_S1x128_S50000x128_0_1 (broadcastInDim S1x128 ![1] bcast_S128_S1x128_1 bl))) (Host.dotGeneral dot_S50000x128_S128x128_S50000x128_1_0_0_1_n_n none h Wr)))
                  (constant (F := Ideal) S_ .f32 0x00000000#32) reducesTo_S50000x128_S50000_d1 h_S_)))
              (broadcastInDim S50000x1 ![] bcast_S_S50000x1 (constant (F := Ideal) S_ .f32 0x2B8CBCCC#32)))))
        (broadcastInDim S50000x128 ![] bcast_S_S50000x128 (constant (F := Ideal) S_ .f32 0x00000000#32))
      = sage agg h deg Wl (rowOf bl) Wr := by
  rw [dot_layer_eq]
  exact hostSage_eq agg h deg Wl Wr bl _ _ _ _ (by decide) _ _ _ _ _

/-- The pooling head: mean pooling, then three dense layers, the first two with relu. -/
theorem poolHead_eq (gsum : FVec Ideal S256x128 .f32) (cnt : FVec Ideal S256 .f32)
    (W1 : FVec Ideal S128x128 .f32) (b1 : FVec Ideal S128 .f32) (W2 : FVec Ideal S128x64 .f32) (b2 : FVec Ideal S64 .f32)
    (W3 : FVec Ideal S64x1 .f32) (b3 : FVec Ideal S1 .f32) :
    addf
        (Host.dotGeneral dot_S256x64_S64x1_S256x1_1_0_0_1_n_n none
          (maximumf
            (addf
              (Host.dotGeneral dot_S256x128_S128x64_S256x64_1_0_0_1_n_n none
                (maximumf
                  (addf
                    (Host.dotGeneral dot_S256x128_S128x128_S256x128_1_0_0_1_n_n none
                      (Host.divf gsum
                        (broadcastInDim S256x128 ![0, 1] bcast_S256x1_S256x128_0_1
                          (broadcastInDim S256x1 ![0] bcast_S256_S256x1_0
                            (maximumf cnt (broadcastInDim S256 ![] bcast_S_S256 (constant (F := Ideal) S_ .f32 0x3F800000#32))))))
                      W1)
                    (broadcastInDim S256x128 ![0, 1] bcast_S1x128_S256x128_0_1 (broadcastInDim S1x128 ![1] bcast_S128_S1x128_1 b1)))
                  (broadcastInDim S256x128 ![] bcast_S_S256x128 (constant (F := Ideal) S_ .f32 0x00000000#32)))
                W2)
              (broadcastInDim S256x64 ![0, 1] bcast_S1x64_S256x64_0_1 (broadcastInDim S1x64 ![1] bcast_S64_S1x64_1 b2)))
            (broadcastInDim S256x64 ![] bcast_S_S256x64 (constant (F := Ideal) S_ .f32 0x00000000#32)))
          W3)
        (broadcastInDim S256x1 ![0, 1] bcast_S1x1_S256x1_0_1 (broadcastInDim S1x1 ![1] bcast_S1_S1x1_1 b3))
      = poolMlp gsum (broadcastInDim S256x1 ![0] bcast_S256_S256x1_0 cnt) W1 (rowOf b1) W2 (rowOf b2) W3 (rowOf b3) := by
  rw [dot_head1_eq, dot_head2_eq, dot_head3_eq]
  rw [hostMeanPool_eq gsum cnt, hostDenseRelu_eq, hostDenseRelu_eq, hostDense_eq]
  rfl

end Cert.ReferenceIdeal.Hand

end
-- ==== Proof.RChain.lean ====
/-
  The reference program's result as one composed term in the specification's vocabulary.

  The index arrays read off the edge list and the batch vector, the reciprocal in-degree column, the neighbour sums
  (a gather of source rows scattered onto target rows) and the per-graph sums and counts are named as they stand in
  the program; they are compared as terms and never evaluated. Between them the dense stretches are the
  specification's `dense`, `relu`, `sage` and `poolMlp`: the node features after the projection and after each of the
  two graph layers, then the pooling head.
-/
import proofs.«131596_j2508260901292_2_alg».proof.Proof.Gen.ReferenceIdeal.Run
import proofs.«131596_j2508260901292_2_alg».proof.Proof.RefDense

noncomputable section

namespace Cert.ReferenceIdeal.Hand

open Cert.ReferenceIdeal Cert.ReferenceIdeal.Gen Cert.GraphSage Idealize.ShloMosaic Idealize.ShloMosaic.ValueIdx
open Idealize.ShloMosaic.TcCoe Idealize.SL.Sem Idealize.ShloMosaic.StableHlo

/-! ## The graph's index arrays and the gather/scatter steps, named -/

/-- The edges' source nodes: row 0 of the edge list. -/
def srcOf (ei : (⟨S2x600000, .i32⟩ : BufTy).Contents (Elt Ideal)) : (⟨S600000, .i32⟩ : BufTy).Contents (Elt Ideal) :=
  shapeCast _ (extractStridedSlice S1x600000 ![0, 0] ei slices_S2x600000_S1x600000_0_0) shapeCasts_S1x600000_S600000

/-- The edges' target nodes: row 1 of the edge list. -/
def dstOf (ei : (⟨S2x600000, .i32⟩ : BufTy).Contents (Elt Ideal)) : (⟨S600000, .i32⟩ : BufTy).Contents (Elt Ideal) :=
  shapeCast _ (extractStridedSlice S1x600000 ![1, 0] ei slices_S2x600000_S1x600000_1_0) shapeCasts_S1x600000_S600000

/-- The reciprocal of the larger of a node's in-degree and one, as a column. -/
def degInv (ei : (⟨S2x600000, .i32⟩ : BufTy).Contents (Elt Ideal)) : (⟨S50000x1, .f32⟩ : BufTy).Contents (Elt Ideal) :=
  broadcastInDim S50000x1 ![0] bcast_S50000_S50000x1_0
    (Host.divf (F := Ideal) (broadcastInDim S50000 ![] bcast_S_S50000 (constant S_ .f32 0x3F800000#32))
      (maximumf
        (Host.scatterAdd scatter_S50000_S600000x1_S600000_n_0_0_1
          (broadcastInDim S50000 ![] bcast_S_S50000 (constant S_ .f32 0x00000000#32))
          (broadcastInDim S600000x1 ![0] bcast_S600000_S600000x1_0 (dstOf ei))
          (broadcastInDim S600000 ![] bcast_S_S600000 (constant S_ .f32 0x3F800000#32)))
        (broadcastInDim S50000 ![] bcast_S_S50000 (constant S_ .f32 0x3F800000#32))))

/-- The sum, at each node, of the feature rows of the sources of its incoming edges. -/
def aggOf (ei : (⟨S2x600000, .i32⟩ : BufTy).Contents (Elt Ideal)) (h : (⟨S50000x128, .f32⟩ : BufTy).Contents (Elt Ideal)) :
    (⟨S50000x128, .f32⟩ : BufTy).Contents (Elt Ideal) :=
  Host.scatterAdd (F := Ideal) scatter_S50000x128_S600000x1_S600000x128_1_0_0_1
    (broadcastInDim S50000x128 ![] bcast_S_S50000x128 (constant S_ .f32 0x00000000#32))
    (broadcastInDim S600000x1 ![0] bcast_S600000_S600000x1_0 (dstOf ei))
    (Host.gather gather_S50000x128_S600000x1_S600000x128_1_0_n_n_0_1_1128 h
      (broadcastInDim S600000x1 ![0] bcast_S600000_S600000x1_0
        (select (cmpi .slt (srcOf ei) (broadcastInDim S600000 ![] bcast_S_S600000 (constantI S_ 32 0#32)))
          (addi (srcOf ei) (broadcastInDim S600000 ![] bcast_S_S600000 (constantI S_ 32 50000#32)))
          (srcOf ei))))

/-- The sum of the node rows of each graph. -/
def gsumOf (batch : (⟨S50000, .i32⟩ : BufTy).Contents (Elt Ideal)) (h : (⟨S50000x128, .f32⟩ : BufTy).Contents (Elt Ideal)) : (⟨S256x128, .f32⟩ : BufTy).Contents (Elt Ideal) :=
  Host.scatterAdd (F := Ideal) scatter_S256x128_S50000x1_S50000x128_1_0_0_1 (broadcastInDim S256x128 ![] bcast_S_S256x128 (constant S_ .f32 0x00000000#32)) (broadcastInDim S50000x1 ![0] bcast_S50000_S50000x1_0 batch) h
/-- The number of nodes of each graph, as a column. -/
def gcntOf (batch : (⟨S50000, .i32⟩ : BufTy).Contents (Elt Ideal)) : (⟨S256x1, .f32⟩ : BufTy).Contents (Elt Ideal) :=
  broadcastInDim S256x1 ![0] bcast_S256_S256x1_0 (Host.scatterAdd (F := Ideal) scatter_S256_S50000x1_S50000_n_0_0_1 (broadcastInDim S256 ![] bcast_S_S256 (constant S_ .f32 0x00000000#32)) (broadcastInDim S50000x1 ![0] bcast_S50000_S50000x1_0 batch) (broadcastInDim S50000 ![] bcast_S_S50000 (constant S_ .f32 0x3F800000#32)))

/-! ## The network, layer by layer -/

/-- The node features after the input projection. -/
def layer0 (a0 : (⟨S50000x5, .f32⟩ : BufTy).Contents (Elt Ideal)) (a3 : (⟨S5x128, .f32⟩ : BufTy).Contents (Elt Ideal)) (a4 : (⟨S128, .f32⟩ : BufTy).Contents (Elt Ideal)) : Mat 50000 128 :=
  relu (dense a0 a3 (rowOf a4))

/-- The node features after the first graph layer. -/
def layer1 (a0 : (⟨S50000x5, .f32⟩ : BufTy).Contents (Elt Ideal)) (a1 : (⟨S2x600000, .i32⟩ : BufTy).Contents (Elt Ideal)) (a3 : (⟨S5x128, .f32⟩ : BufTy).Contents (Elt Ideal)) (a4 : (⟨S128, .f32⟩ : BufTy).Contents (Elt Ideal))
    (a5 : (⟨S128x128, .f32⟩ : BufTy).Contents (Elt Ideal)) (a6 : (⟨S128, .f32⟩ : BufTy).Contents (Elt Ideal)) (a7 : (⟨S128x128, .f32⟩ : BufTy).Contents (Elt Ideal)) : Mat 50000 128 :=
  sage (aggOf a1 (layer0 a0 a3 a4)) (layer0 a0 a3 a4) (degInv a1) a5 (rowOf a6) a7

/-- The node features after the second graph layer. -/
def layer2 (a0 : (⟨S50000x5, .f32⟩ : BufTy).Contents (Elt Ideal)) (a1 : (⟨S2x600000, .i32⟩ : BufTy).Contents (Elt Ideal)) (a3 : (⟨S5x128, .f32⟩ : BufTy).Contents (Elt Ideal)) (a4 : (⟨S128, .f32⟩ : BufTy).Contents (Elt Ideal))
    (a5 : (⟨S128x128, .f32⟩ : BufTy).Contents (Elt Ideal)) (a6 : (⟨S128, .f32⟩ : BufTy).Contents (Elt Ideal)) (a7 : (⟨S128x128, .f32⟩ : BufTy).Contents (Elt Ideal))
    (a8 : (⟨S128x128, .f32⟩ : BufTy).Contents (Elt Ideal)) (a9 : (⟨S128, .f32⟩ : BufTy).Contents (Elt Ideal)) (a10 : (⟨S128x128, .f32⟩ : BufTy).Contents (Elt Ideal)) : Mat 50000 128 :=
  sage (aggOf a1 (layer1 a0 a1 a3 a4 a5 a6 a7)) (layer1 a0 a1 a3 a4 a5 a6 a7) (degInv a1) a8 (rowOf a9) a10

/-- The whole network: two graph layers on the projected features, per-graph mean pooling, the three-layer head. -/
def refNet (a0 : (⟨S50000x5, .f32⟩ : BufTy).Contents (Elt Ideal)) (a1 : (⟨S2x600000, .i32⟩ : BufTy).Contents (Elt Ideal)) (a2 : (⟨S50000, .i32⟩ : BufTy).Contents (Elt Ideal)) (a3 : (⟨S5x128, .f32⟩ : BufTy).Contents (Elt Ideal))
    (a4 : (⟨S128, .f32⟩ : BufTy).Contents (Elt Ideal)) (a5 : (⟨S128x128, .f32⟩ : BufTy).Contents (Elt Ideal)) (a6 : (⟨S128, .f32⟩ : BufTy).Contents (Elt Ideal)) (a7 : (⟨S128x128, .f32⟩ : BufTy).Contents (Elt Ideal))
    (a8 : (⟨S128x128, .f32⟩ : BufTy).Contents (Elt Ideal)) (a9 : (⟨S128, .f32⟩ : BufTy).Contents (Elt Ideal)) (a10 : (⟨S128x128, .f32⟩ : BufTy).Contents (Elt Ideal)) (a11 : (⟨S128x128, .f32⟩ : BufTy).Contents (Elt Ideal))
    (a12 : (⟨S128, .f32⟩ : BufTy).Contents (Elt Ideal)) (a13 : (⟨S128x64, .f32⟩ : BufTy).Contents (Elt Ideal)) (a14 : (⟨S64, .f32⟩ : BufTy).Contents (Elt Ideal)) (a15 : (⟨S64x1, .f32⟩ : BufTy).Contents (Elt Ideal))
    (a16 : (⟨S1, .f32⟩ : BufTy).Contents (Elt Ideal)) : Mat 256 1 :=
  poolMlp (gsumOf a2 (layer2 a0 a1 a3 a4 a5 a6 a7 a8 a9 a10)) (gcntOf a2) a11 (rowOf a12) a13 (rowOf a14) a15 (rowOf a16)

/-! ## The reference's result is the network -/

set_option maxRecDepth 8192 in
/-- The composed term of the reference's 126 host operations, at the ideal values, is `refNet` of its arguments. -/
theorem ref_value (m : (ℓ : Loc nD τ sig) → Buf (Elt Ideal) ℓ) (c : Dev nD) :
    Cert.ReferenceIdeal.Value.res_main_v97 (F := Ideal) m c
      = refNet (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) := by
  unfold Cert.ReferenceIdeal.Value.res_main_v97
  rw [proj_eq, sageLayer_eq, sageLayer_eq, poolHead_eq]
  unfold refNet layer2 layer1 layer0 aggOf degInv gsumOf gcntOf srcOf dstOf
  rfl

end Cert.ReferenceIdeal.Hand

end
-- ==== Proof.lean ====
/-
  A graph network — a dense projection with relu, two mean-aggregating graph layers with row normalisation and relu,
  mean pooling over graphs and a three-layer head — computed by four pallas kernels with host gather / scatter-add
  between them, against the same network written with whole-array host operations.

  Over the extended reals both programs compute ONE function of the seventeen argument arrays:
    * the kernels' narrowing to half precision before each product is the identity, and a kernel product into the zero
      accumulator and the host's contraction are the same finite sum; a lane reduction and the host's reduction are
      the same finite sum; the kernel's square root and division and the host's are the same functions;
    * each kernel works on blocks of rows, and every entry of a dense layer or of a graph layer depends on one row of
      its row-indexed operands, so the blocks a kernel writes are the rows of the layer of the whole arrays;
    * the host operations between the kernels (the edge list cut in two, the in-degree count and its reciprocal, the
      gather at the sources and the scatter-add at the targets, the per-graph sums and counts) are the same operations
      in both programs, applied to equal arrays;
    * the kernels scale the neighbour sums by the reciprocal degree before the product, as the reference does: no
      law of arithmetic beyond rewriting equal operands is used, so the finiteness of the inputs is never needed.
  Proved here: the three frames (the two kernel programs' from their frame certificates, the reference's from its
  run), the idealization's ledger (empty), and the equality of results.
-/
import proofs.«131596_j2508260901292_2_alg».proof.Defs
import proofs.«131596_j2508260901292_2_alg».proof.Proof.Gen.Kernel
import proofs.«131596_j2508260901292_2_alg».proof.Proof.Gen.KernelIdeal
import proofs.«131596_j2508260901292_2_alg».proof.Proof.Gen.ReferenceIdeal
import proofs.«131596_j2508260901292_2_alg».proof.Proof.Gen.Pre_finite_inputs
import proofs.«131596_j2508260901292_2_alg».proof.Proof.Gen.ReferenceIdeal.Run
import proofs.«131596_j2508260901292_2_alg».proof.Proof.KernelFrameP
import proofs.«131596_j2508260901292_2_alg».proof.Proof.KernelIdealFrameP
import proofs.«131596_j2508260901292_2_alg».proof.Proof.KRun
import proofs.«131596_j2508260901292_2_alg».proof.Proof.KChainB
import proofs.«131596_j2508260901292_2_alg».proof.Proof.RChain
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.GraphSage

/-! ## The two spellings of the network agree -/

/-- A vector laid out as one row by a shape cast is the row the reference spreads it to. -/
theorem castRow_eq_rowOf {N : Nat} (b : (⟨1, ![N]⟩ : Shape).Idx → EReal) (h : (⟨1, ![N]⟩ : Shape).ShapeCasts ⟨2, ![1, N]⟩) :
    shapeCast ⟨2, ![1, N]⟩ b h = Cert.ReferenceIdeal.Hand.rowOf b := by
  funext i
  obtain ⟨p, q, rfl⟩ : ∃ (p : Fin 1) (q : Fin N), i = ix2 p q := ⟨i 0, i 1, eq_ix2 i⟩
  obtain rfl : p = 0 := Subsingleton.elim _ _
  rw [shapeCast_addUnit_apply ![N] b h (ix2 (0 : Fin 1) q)]
  exact congrArg b (funext fun a => by match a with | ⟨0, _⟩ => rfl)

section Net
variable (a0 : (⟨Cert.KernelIdeal.S50000x5, .f32⟩ : BufTy).Contents (Elt Ideal)) (a1 : (⟨Cert.KernelIdeal.S2x600000, .i32⟩ : BufTy).Contents (Elt Ideal))
  (a2 : (⟨Cert.KernelIdeal.S50000, .i32⟩ : BufTy).Contents (Elt Ideal)) (a3 : (⟨Cert.KernelIdeal.S5x128, .f32⟩ : BufTy).Contents (Elt Ideal)) (a4 : (⟨Cert.KernelIdeal.S128, .f32⟩ : BufTy).Contents (Elt Ideal))
  (a5 : (⟨Cert.KernelIdeal.S128x128, .f32⟩ : BufTy).Contents (Elt Ideal)) (a6 : (⟨Cert.KernelIdeal.S128, .f32⟩ : BufTy).Contents (Elt Ideal)) (a7 : (⟨Cert.KernelIdeal.S128x128, .f32⟩ : BufTy).Contents (Elt Ideal))
  (a8 : (⟨Cert.KernelIdeal.S128x128, .f32⟩ : BufTy).Contents (Elt Ideal)) (a9 : (⟨Cert.KernelIdeal.S128, .f32⟩ : BufTy).Contents (Elt Ideal)) (a10 : (⟨Cert.KernelIdeal.S128x128, .f32⟩ : BufTy).Contents (Elt Ideal))
  (a11 : (⟨Cert.KernelIdeal.S128x128, .f32⟩ : BufTy).Contents (Elt Ideal)) (a12 : (⟨Cert.KernelIdeal.S128, .f32⟩ : BufTy).Contents (Elt Ideal)) (a13 : (⟨Cert.KernelIdeal.S128x64, .f32⟩ : BufTy).Contents (Elt Ideal))
  (a14 : (⟨Cert.KernelIdeal.S64, .f32⟩ : BufTy).Contents (Elt Ideal)) (a15 : (⟨Cert.KernelIdeal.S64x1, .f32⟩ : BufTy).Contents (Elt Ideal)) (a16 : (⟨Cert.KernelIdeal.S1, .f32⟩ : BufTy).Contents (Elt Ideal))

/-- The two programs' host glue is the same operations with the same dimension records. -/
theorem agg_eq (h : (⟨Cert.KernelIdeal.S50000x128, .f32⟩ : BufTy).Contents (Elt Ideal)) :
    Cert.KernelIdeal.Hand.aggOf a1 h = Cert.ReferenceIdeal.Hand.aggOf a1 h := rfl
theorem deg_eq : Cert.KernelIdeal.Hand.degInv a1 = Cert.ReferenceIdeal.Hand.degInv a1 := rfl
theorem gsum_eq (h : (⟨Cert.KernelIdeal.S50000x128, .f32⟩ : BufTy).Contents (Elt Ideal)) :
    Cert.KernelIdeal.Hand.gsumOf a2 h = Cert.ReferenceIdeal.Hand.gsumOf a2 h := rfl
theorem gcnt_eq : Cert.KernelIdeal.Hand.gcntOf a2 = Cert.ReferenceIdeal.Hand.gcntOf a2 := rfl

theorem layer0_eq : Cert.KernelIdeal.Hand.layer0 a0 a3 a4 = Cert.ReferenceIdeal.Hand.layer0 a0 a3 a4 := by
  unfold Cert.KernelIdeal.Hand.layer0 Cert.ReferenceIdeal.Hand.layer0 Cert.KernelIdeal.Hand.biasRow
  rw [castRow_eq_rowOf]

theorem layer1_eq : Cert.KernelIdeal.Hand.layer1 a0 a1 a3 a4 a5 a6 a7 = Cert.ReferenceIdeal.Hand.layer1 a0 a1 a3 a4 a5 a6 a7 := by
  unfold Cert.KernelIdeal.Hand.layer1 Cert.ReferenceIdeal.Hand.layer1 Cert.KernelIdeal.Hand.biasRow
  rw [layer0_eq, agg_eq, deg_eq, castRow_eq_rowOf]

theorem layer2_eq : Cert.KernelIdeal.Hand.layer2 a0 a1 a3 a4 a5 a6 a7 a8 a9 a10 = Cert.ReferenceIdeal.Hand.layer2 a0 a1 a3 a4 a5 a6 a7 a8 a9 a10 := by
  unfold Cert.KernelIdeal.Hand.layer2 Cert.ReferenceIdeal.Hand.layer2 Cert.KernelIdeal.Hand.biasRow
  rw [layer1_eq, agg_eq, deg_eq, castRow_eq_rowOf]

/-- The kernel's network and the reference's network are one function of the arguments. -/
theorem net_eq : Cert.KernelIdeal.Hand.kerNet a0 a1 a2 a3 a4 a5 a6 a7 a8 a9 a10 a11 a12 a13 a14 a15 a16
    = Cert.ReferenceIdeal.Hand.refNet a0 a1 a2 a3 a4 a5 a6 a7 a8 a9 a10 a11 a12 a13 a14 a15 a16 := by
  unfold Cert.KernelIdeal.Hand.kerNet Cert.ReferenceIdeal.Hand.refNet Cert.KernelIdeal.Hand.biasRow Cert.KernelIdeal.Hand.biasRow64 Cert.KernelIdeal.Hand.biasRow1
  rw [layer2_eq, gsum_eq, gcnt_eq, castRow_eq_rowOf, castRow_eq_rowOf, castRow_eq_rowOf]
end Net

/-! ## The claims -/

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the network of their (equal) arguments in the result, the arguments unchanged. -/
theorem algebraic : Cert.algebraic_KernelIdeal_ReferenceIdeal := by
  intro m ρ m' ρ' _ hagree
  refine ⟨fun c => Cert.KernelIdeal.Hand.kerNet (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono (fun r h c =>
      ⟨(h c _ Cert.KernelIdeal.Hand.result_mem).trans (Cert.KernelIdeal.Hand.kernel_value m ρ c),
       (h c _ (Cert.KernelIdeal.GenP.mem_uc Cert.KernelIdeal.main_arg0 (by decide))).trans (Cert.KernelIdeal.GenP.W8_main_arg0 m ρ c),
       (h c _ (Cert.KernelIdeal.GenP.mem_uc Cert.KernelIdeal.main_arg1 (by decide))).trans (Cert.KernelIdeal.GenP.W8_main_arg1 m ρ c),
       (h c _ (Cert.KernelIdeal.GenP.mem_uc Cert.KernelIdeal.main_arg2 (by decide))).trans (Cert.KernelIdeal.GenP.W8_main_arg2 m ρ c),
       (h c _ (Cert.KernelIdeal.GenP.mem_uc Cert.KernelIdeal.main_arg3 (by decide))).trans (Cert.KernelIdeal.GenP.W8_main_arg3 m ρ c),
       (h c _ (Cert.KernelIdeal.GenP.mem_uc Cert.KernelIdeal.main_arg4 (by decide))).trans (Cert.KernelIdeal.GenP.W8_main_arg4 m ρ c),
       (h c _ (Cert.KernelIdeal.GenP.mem_uc Cert.KernelIdeal.main_arg5 (by decide))).trans (Cert.KernelIdeal.GenP.W8_main_arg5 m ρ c),
       (h c _ (Cert.KernelIdeal.GenP.mem_uc Cert.KernelIdeal.main_arg6 (by decide))).trans (Cert.KernelIdeal.GenP.W8_main_arg6 m ρ c),
       (h c _ (Cert.KernelIdeal.GenP.mem_uc Cert.KernelIdeal.main_arg7 (by decide))).trans (Cert.KernelIdeal.GenP.W8_main_arg7 m ρ c),
       (h c _ (Cert.KernelIdeal.GenP.mem_uc Cert.KernelIdeal.main_arg8 (by decide))).trans (Cert.KernelIdeal.GenP.W8_main_arg8 m ρ c),
       (h c _ (Cert.KernelIdeal.GenP.mem_uc Cert.KernelIdeal.main_arg9 (by decide))).trans (Cert.KernelIdeal.GenP.W8_main_arg9 m ρ c),
       (h c _ (Cert.KernelIdeal.GenP.mem_uc Cert.KernelIdeal.main_arg10 (by decide))).trans (Cert.KernelIdeal.GenP.W8_main_arg10 m ρ c),
       (h c _ (Cert.KernelIdeal.GenP.mem_uc Cert.KernelIdeal.main_arg11 (by decide))).trans (Cert.KernelIdeal.GenP.W8_main_arg11 m ρ c),
       (h c _ (Cert.KernelIdeal.GenP.mem_uc Cert.KernelIdeal.main_arg12 (by decide))).trans (Cert.KernelIdeal.GenP.W8_main_arg12 m ρ c),
       (h c _ (Cert.KernelIdeal.GenP.mem_uc Cert.KernelIdeal.main_arg13 (by decide))).trans (Cert.KernelIdeal.GenP.W8_main_arg13 m ρ c),
       (h c _ (Cert.KernelIdeal.GenP.mem_uc Cert.KernelIdeal.main_arg14 (by decide))).trans (Cert.KernelIdeal.GenP.W8_main_arg14 m ρ c),
       (h c _ (Cert.KernelIdeal.GenP.mem_uc Cert.KernelIdeal.main_arg15 (by decide))).trans (Cert.KernelIdeal.GenP.W8_main_arg15 m ρ c),
       (h c _ (Cert.KernelIdeal.GenP.mem_uc Cert.KernelIdeal.main_arg16 (by decide))).trans (Cert.KernelIdeal.GenP.W8_main_arg16 m ρ c)⟩)
      (Cert.KernelIdeal.Hand.run_final m ρ)
  · refine (θ_run Cert.ReferenceIdeal.defs _ _).mono (fun r h c => ⟨?_, (h c).2⟩) (Cert.ReferenceIdeal.Value.run (F := Ideal) m' ρ')
    obtain ⟨e0, e1, e2, e3, e4, e5, e6, e7, e8, e9, e10, e11, e12, e13, e14, e15, e16⟩ := hagree c
    rw [(h c).1, Cert.ReferenceIdeal.Hand.ref_value, e0, e1, e2, e3, e4, e5, e6, e7, e8, e9, e10, e11, e12, e13, e14, e15, e16]
    exact (net_eq _ _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
